-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x128 : Shape := ⟨2, ![4096, 128]⟩
abbrev S8192x128 : Shape := ⟨2, ![8192, 128]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S4096x8192 .f32) (main_arg1 : FVec F S4096x128 .f32) (main_arg2 : FVec F S8192x128 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S4096x8192 : Shape := ⟨2, ![4096, 8192]⟩
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x126 : Shape := ⟨2, ![8192, 126]⟩
abbrev S8192x256 : Shape := ⟨2, ![8192, 256]⟩
abbrev S2x8x128 : Shape := ⟨3, ![2, 8, 128]⟩
abbrev S256x8192 : Shape := ⟨2, ![256, 8192]⟩
abbrev S256x128 : Shape := ⟨2, ![256, 128]⟩
abbrev S1x8x128 : Shape := ⟨3, ![1, 8, 128]⟩
abbrev S1x1 : Shape := ⟨2, ![1, 1]⟩
abbrev S256x256 : Shape := ⟨2, ![256, 256]⟩
abbrev S256x1 : Shape := ⟨2, ![256, 1]⟩
abbrev S256 : Shape := ⟨1, ![256]⟩
abbrev S1 : Shape := ⟨1, ![1]⟩
abbrev S1x1x1 : Shape := ⟨3, ![1, 1, 1]⟩

abbrev nBuf : Space → Nat
  | .hbm => 20
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S_, .f32⟩
  | .hbm, ⟨10, _⟩ => ⟨S8192x126, .f32⟩
  | .hbm, ⟨11, _⟩ => ⟨S8192x256, .f32⟩
  | .hbm, ⟨12, _⟩ => ⟨S8192x256, .bf16⟩
  | .hbm, ⟨13, _⟩ => ⟨S2x8x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x128, .f32⟩
  | .local _ .vmem, ⟨3, _⟩ => ⟨S256x128, .f32⟩
  | .local _ .vmem, ⟨4, _⟩ => ⟨S8192x256, .bf16⟩
  | .local _ .vmem, ⟨5, _⟩ => ⟨S1x8x128, .f32⟩
  | .local _ .vmem, ⟨6, _⟩ => ⟨S1x8x128, .f32⟩
  | .local _ .vmem, ⟨7, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192x126 : S_.BroadcastsInDim S8192x126 (![] : Fin 0 → Fin S8192x126.rank)
  concatenates_S8192x128_S8192x1_S8192x1_S8192x126_S8192x256_d1 : Shape.Concatenates [S8192x128, S8192x1, S8192x1, S8192x126] S8192x256 1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  h_S256x128 : 0 < S256x128.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  slices_S256x256_o0_0_S256x128 : S256x256.Slices ![0, 0] S256x128
  slices_S256x256_o0_128_S256x1 : S256x256.Slices ![0, 128] S256x1
  slices_S256x256_o0_129_S256x1 : S256x256.Slices ![0, 129] S256x1
  reduces_S256x128_S256 : S256x128.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S2x8x128_S_d0_1_2 : S2x8x128.ReducesTo [0, 1, 2] S_
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S4096x128 : Shape := ⟨2, ![4096, 128]⟩
abbrev S8192x128 : Shape := ⟨2, ![8192, 128]⟩
abbrev S_ : Shape := ⟨0, ![]⟩
abbrev S4096 : Shape := ⟨1, ![4096]⟩
abbrev S8192 : Shape := ⟨1, ![8192]⟩

abbrev nBuf : Space → Nat
  | .hbm => 29
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x128, .f32⟩
  | .hbm, ⟨2, _⟩ => ⟨S8192x128, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S8192, .f32⟩
  | .hbm, ⟨7, _⟩ => ⟨S4096x128, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  reducesTo_S4096x8192_S8192_d0 : S4096x8192.ReducesTo [0] S8192
  reducesTo_S4096x128_S4096_d1 : S4096x128.ReducesTo [1] S4096
  reducesTo_S4096_S_d0 : S4096.ReducesTo [0] S_
  reducesTo_S8192x128_S8192_d1 : S8192x128.ReducesTo [1] S8192
  reducesTo_S8192_S_d0 : S8192.ReducesTo [0] S_
  reducesTo_S4096x128_S_d0_1 : S4096x128.ReducesTo [0, 1] S_
  dot_S4096x8192_S8192x128_S4096x128_1_0_0_1_n_n_wf : DotDims.WF S4096x8192 S8192x128 S4096x128 [1] [0] [0] [1] [] []

variable [Facts₀]

def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf

class Facts : Prop extends Facts₀ where

variable [Facts]
-- ==== Proof.KFrameKit.lean ====
/-
  The setting of the frame proof of the kernel as printed: the program around its one launch, and the launch's schedule.

  @main is ten host operations (they build the augmented right factor from the third argument), the launch, and
  six host operations (a sum of the launch's result and two divisions).  The launch walks a 2 x 8 grid of 16 points
  in order; point t reads rows 256 t .. 256 t + 255 of the first two arguments and the whole augmented factor, adds
  its contribution to a one-word running sum that lives in scratch memory (reset when the second grid coordinate is
  0), and when the second coordinate is 7 writes the running sum, replicated, into block (t / 8) of the result.

  Stated here: the contents of every buffer when the launch begins (`V`), each window's block at a point (`iblk`),
  that an input's staging buffer holds its block at every point, the two branch conditions of the body in closed form
  over the grid, where the result's window is idle, and how a run to the library's frame postcondition gives the
  claim "the three arguments end as they began".
-/
import proofs.«104621_j30631706755178_2_alg».proof.Proof.Gen.Kernel.Launch
import proofs.«104621_j30631706755178_2_alg».proof.Proof.Gen.Kernel.Skeleton
import proofs.«104621_j30631706755178_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The contents of core `c`'s buffers when the launch begins: the launch memory after the ten host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the launch allocates. -/
theorem hostOps0_fresh : (hostOps0 : List (HloOp τ sig (Elt F))).Forall fun op => op.fresh = ∅ := by
  simp only [List.Forall]; repeat' constructor
/-- Nor does one after it. -/
theorem hostOps1_fresh : (hostOps1 : List (HloOp τ sig (Elt F))).Forall fun op => op.fresh = ∅ := by
  simp only [List.Forall]; repeat' constructor

/-- @main is: the host operations before the launch, the launch, and the host operations after it as the launch's
    continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch only the launch's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes an array of the launch: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.nullary_writes, StableHlo.binary_writes, Finset.mem_singleton] <;> exact StableHlo.devRef_ne_of_ne (by decide)

/-- No host operation before the launch writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the third. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input holds the point's block at every point, for any proof data whose array is
    the launch-time contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the third input, which is fetched once: its block index never moves. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claim "the arguments end as they began" from a run to the library's frame postcondition -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's two branch conditions, over the grid -/

/-- "The second grid coordinate is 0": the condition under which the running sum is reset. -/
abbrev cond0 (i : grid0.Coords) : Prop := (Scalar.cmpi .ne (Scalar.extui (Scalar.cmpi .eq (BitVec.ofNat 32 (i 1).val) 0#32)) 0#32) = 1#1
/-- It holds exactly at the points that are multiples of 8. -/
theorem hcond0 : ∀ t : Fin cfg0.N, cond0 (grid0.coords t) ↔ t.val % 8 = 0 :=
  (by decide +kernel : ∀ t : Fin grid0.N, cond0 (grid0.coords t) ↔ t.val % 8 = 0)

/-- "The second grid coordinate is 7": the condition under which the result block is stored. -/
abbrev cond1 (i : grid0.Coords) : Prop := k0_cond2 i = 1#1
/-- It holds exactly at the points that are 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Where the result block is not stored, its window is idle and is not written back. -/
theorem idleAt3 : ∀ t : Fin cfg0.N, ¬cond1 (grid0.coords t) → cfg0.idle 3 (grid0.coords t) = true := by decide +kernel
theorem noFlush3 : ∀ t : Fin cfg0.N, ¬cond1 (grid0.coords t) → (cfg0.win 3).flush t = false := by decide +kernel
/-- Where it is stored, the window is live. -/
theorem liveAt3 : ∀ t : Fin cfg0.N, cond1 (grid0.coords t) → cfg0.idle 3 (grid0.coords t) = false := by decide +kernel

/-! ## The memrefs the body is called with -/

abbrev ms0 (t : Fin cfg0.N) : Memref sig .tc .vmem S256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)
/-- The one-word scratch buffer that carries the running sum. -/
abbrev scM : Memref sig .tc .vmem S1x1 .f32 := Memref.whole cc0_scratch0

/-- The launch's own invariant: the scratch buffer at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.KRunA.lean ====
/-
  The body at the first point of each half of the grid (second coordinate 0): the running sum is reset to zero, then the
  tile's contribution is added; nothing is stored into the result's block.
-/
import proofs.«104621_j30631706755178_2_alg».proof.Proof.KFrameKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, called at a grid point `i` on whole staging memrefs holding the three input blocks `x0`, `x1`, `x2`,
    runs to its end without a fault; it leaves the inputs as they were, and what it stores is recorded as a list of
    pieces (a rectangle and the value stored there), found by running the body symbolically. -/
noncomputable def runA (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : cond0 i) (hc1 : ¬cond1 i)
    (x0 : Vec F S256x8192 .f32) (x1 : Vec F S256x128 .f32) (x2 : Vec F S8192x256 .bf16) :
    { LS : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, fun xi E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    iexists _; iexact HS

end Cert.Kernel.Fr

end
-- ==== Proof.KRunB.lean ====
/-
  The body at a point strictly inside a half of the grid (second coordinate 1..6): the tile's contribution is added to the
  running sum `xs` the point before left; nothing is stored into the result's block.
-/
import proofs.«104621_j30631706755178_2_alg».proof.Proof.KFrameKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, called at a grid point `i` on whole staging memrefs holding the three input blocks `x0`, `x1`, `x2`,
    runs to its end without a fault; it leaves the inputs as they were, and what it stores is recorded as a list of
    pieces (a rectangle and the value stored there), found by running the body symbolically. -/
noncomputable def runB (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : ¬cond1 i)
    (x0 : Vec F S256x8192 .f32) (x1 : Vec F S256x128 .f32) (x2 : Vec F S8192x256 .bf16) (xs : Vec F S1x1 .f32) :
    { LS : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, fun xi E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf5; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    iexists _; iexact HS

end Cert.Kernel.Fr

end
-- ==== Proof.KRunC.lean ====
/-
  The body at the last point of each half of the grid (second coordinate 7): the tile's contribution is added to the
  running sum `xs` the point before left, and the new sum, replicated, is stored over the whole result block.
-/
import proofs.«104621_j30631706755178_2_alg».proof.Proof.KFrameKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, called at a grid point `i` on whole staging memrefs holding the three input blocks `x0`, `x1`, `x2`,
    runs to its end without a fault; it leaves the inputs as they were, and what it stores is recorded as a list of
    pieces (a rectangle and the value stored there), found by running the body symbolically. -/
noncomputable def runC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) :
    Σ' (L5 : List (View.Piece (Elt F) S1x8x128 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

end Cert.Kernel.Fr

end
-- ==== Proof.KFrame.lean ====
/-
  The frame of the kernel as printed (read at the word level): the program runs to its end, nothing faults, and the three arguments end as
  they began.

  The launch's 16 points fall in three kinds by the second grid coordinate k = t mod 8:  k = 0 (the running sum is
  reset, then the tile's contribution added), 0 < k < 7 (the contribution added to what the point before left), and
  k = 7 (the same, and the new sum written to the result's block).  `accAt n` is what the scratch word holds after
  point n, by recursion on n through the three kinds; `outAt t` is what the result's staging buffer holds after a
  point of the third kind.  The invariant carried from point to point says the scratch word holds `accAt` of the
  point before; the proof data hand every input's block back unchanged.
-/
import proofs.«104621_j30631706755178_2_alg».proof.Proof.KRunA
import proofs.«104621_j30631706755178_2_alg».proof.Proof.KRunB
import proofs.«104621_j30631706755178_2_alg».proof.Proof.KRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result's window and the scratch word, as views: stored contents are stated through them. -/
abbrev VO : View sig .tc .vmem S1x8x128 .f32 := (Memref.whole cc0_stg3_0 : Memref sig .tc .vmem S1x8x128 .f32).view
abbrev VS : View sig .tc .vmem S1x1 .f32 := scM.view

/-! ## What each kind of point leaves -/

/-- The stores of a point of the first kind cover the scratch word. -/
theorem scoverA (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : cond0 i) (hc1 : ¬cond1 i)
    (x0 : Vec F S256x8192 .f32) (x1 : Vec F S256x128 .f32) (x2 : Vec F S8192x256 .bf16) (y : S1x1.Idx) :
    ∃ pc ∈ (runA c i arg2 harg2 arg3 harg3 arg4 harg4 arg5 harg5 arg6 harg6 hc0 hc1 x0 x1 x2).1, y ∈ pc.1.set :=
  View.cover_of_tiledL (runA c i arg2 harg2 arg3 harg3 arg4 harg4 arg5 harg5 arg6 harg6 hc0 hc1 x0 x1 x2).1 S1x1.size (by sl_kernel_rfl) y
/-- What a point of the first kind leaves in the scratch word. -/
def soutA (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : cond0 i) (hc1 : ¬cond1 i)
    (x0 : Vec F S256x8192 .f32) (x1 : Vec F S256x128 .f32) (x2 : Vec F S8192x256 .bf16) : Vec F S1x1 .f32 :=
  VS.read (Elt F) (VS.writes (Elt F) VS.junk (runA c i arg2 harg2 arg3 harg3 arg4 harg4 arg5 harg5 arg6 harg6 hc0 hc1 x0 x1 x2).1)

/-- The store of a point of the second kind covers the scratch word. -/
theorem scoverB (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : ¬cond1 i)
    (x0 : Vec F S256x8192 .f32) (x1 : Vec F S256x128 .f32) (x2 : Vec F S8192x256 .bf16) (xs : Vec F S1x1 .f32) (y : S1x1.Idx) :
    ∃ pc ∈ (runB c i arg2 harg2 arg3 harg3 arg4 harg4 arg5 harg5 arg6 harg6 hc0 hc1 x0 x1 x2 xs).1, y ∈ pc.1.set :=
  View.cover_of_tiledL (runB c i arg2 harg2 arg3 harg3 arg4 harg4 arg5 harg5 arg6 harg6 hc0 hc1 x0 x1 x2 xs).1 S1x1.size (by sl_kernel_rfl) y
/-- What a point of the second kind leaves in the scratch word. -/
def soutB (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : ¬cond1 i)
    (x0 : Vec F S256x8192 .f32) (x1 : Vec F S256x128 .f32) (x2 : Vec F S8192x256 .bf16) (xs : Vec F S1x1 .f32) : Vec F S1x1 .f32 :=
  VS.read (Elt F) (VS.writes (Elt F) VS.junk (runB c i arg2 harg2 arg3 harg3 arg4 harg4 arg5 harg5 arg6 harg6 hc0 hc1 x0 x1 x2 xs).1)

/-- The store of a point of the third kind into the result's block covers it. -/
theorem coverC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) (y : S1x8x128.Idx) :
    ∃ pc ∈ (runC c i arg2 harg2 arg3 harg3 arg4 harg4 arg5 harg5 arg6 harg6 hc0 hc1 x0 x1 x2 xs).1, y ∈ pc.1.set :=
  View.cover_of_tiledL (runC c i arg2 harg2 arg3 harg3 arg4 harg4 arg5 harg5 arg6 harg6 hc0 hc1 x0 x1 x2 xs).1 S1x8x128.size (by sl_kernel_rfl) y
/-- What a point of the third kind leaves in the result's staging buffer. -/
def outC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) : Vec F S1x8x128 .f32 :=
  VO.read (Elt F) (VO.writes (Elt F) VO.junk (runC c i arg2 harg2 arg3 harg3 arg4 harg4 arg5 harg5 arg6 harg6 hc0 hc1 x0 x1 x2 xs).1)
/-- Its store into the scratch word covers it. -/
theorem scoverC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) (y : S1x1.Idx) :
    ∃ pc ∈ (runC c i arg2 harg2 arg3 harg3 arg4 harg4 arg5 harg5 arg6 harg6 hc0 hc1 x0 x1 x2 xs).2.1, y ∈ pc.1.set :=
  View.cover_of_tiledL (runC c i arg2 harg2 arg3 harg3 arg4 harg4 arg5 harg5 arg6 harg6 hc0 hc1 x0 x1 x2 xs).2.1 S1x1.size (by sl_kernel_rfl) y
/-- What a point of the third kind leaves in the scratch word. -/
def soutC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) : Vec F S1x1 .f32 :=
  VS.read (Elt F) (VS.writes (Elt F) VS.junk (runC c i arg2 harg2 arg3 harg3 arg4 harg4 arg5 harg5 arg6 harg6 hc0 hc1 x0 x1 x2 xs).2.1)

/-! ## The running sum point by point -/

/-- What the scratch word holds after the body at point `n`: the kind of the point is read off `n mod 8`, and a
    point of the second or third kind starts from what point `n - 1` left. -/
def accAt (c : Dev nD) : (n : ℕ) → n < cfg0.N → Vec F S1x1 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcond0 ⟨0, hn⟩).mpr (Nat.zero_mod _))
      (fun h => (fun h => by (try dsimp only at h); omega) ((hcond1 ⟨0, hn⟩).mp h)) (iblk m c 0 ⟨0, hn⟩) (iblk m c 1 ⟨0, hn⟩) (iblk m c 2 ⟨0, hn⟩)
  | n + 1, hn =>
    if h0 : (n + 1) % 8 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcond0 ⟨n + 1, hn⟩).mpr h0)
        (fun h => (fun h7 => by (try dsimp only at h7); omega) ((hcond1 ⟨n + 1, hn⟩).mp h)) (iblk m c 0 ⟨n + 1, hn⟩) (iblk m c 1 ⟨n + 1, hn⟩) (iblk m c 2 ⟨n + 1, hn⟩)
    else if h1 : (n + 1) % 8 = 7 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcond0 ⟨n + 1, hn⟩).mp h)) ((hcond1 ⟨n + 1, hn⟩).mpr h1)
        (iblk m c 0 ⟨n + 1, hn⟩) (iblk m c 1 ⟨n + 1, hn⟩) (iblk m c 2 ⟨n + 1, hn⟩) (accAt c n (Nat.lt_of_succ_lt hn))
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcond0 ⟨n + 1, hn⟩).mp h)) (fun h => h1 ((hcond1 ⟨n + 1, hn⟩).mp h))
        (iblk m c 0 ⟨n + 1, hn⟩) (iblk m c 1 ⟨n + 1, hn⟩) (iblk m c 2 ⟨n + 1, hn⟩) (accAt c n (Nat.lt_of_succ_lt hn))

/-- `accAt` at a point of the first kind. -/
theorem accAt_A (c : Dev nD) (t : Fin cfg0.N) (h0 : t.val % 8 = 0) (h1 : ¬t.val % 8 = 7) :
    accAt m c t.val t.isLt = soutA c (grid0.coords t) (ms0 t) (hs0 t) (ms1 t) (hs1 t) (ms2 t) (hs2 t) (ms3 t) (hs3 t) scM (Memref.isWhole_whole _) ((hcond0 t).mpr h0) (fun h => h1 ((hcond1 t).mp h)) (iblk m c 0 t) (iblk m c 1 t) (iblk m c 2 t) := by
  obtain ⟨n, hn⟩ := t
  cases n with
  | zero => exact rfl
  | succ n => exact (dif_pos h0).trans rfl

/-- `accAt` at a point of the second kind, over what the point before left. -/
theorem accAt_B (c : Dev nD) (t : Fin cfg0.N) (h0 : ¬t.val % 8 = 0) (h1 : ¬t.val % 8 = 7) :
    accAt m c t.val t.isLt = soutB c (grid0.coords t) (ms0 t) (hs0 t) (ms1 t) (hs1 t) (ms2 t) (hs2 t) (ms3 t) (hs3 t) scM (Memref.isWhole_whole _) (fun h => h0 ((hcond0 t).mp h)) (fun h => h1 ((hcond1 t).mp h)) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a point of the third kind, over what the point before left. -/
theorem accAt_C (c : Dev nD) (t : Fin cfg0.N) (h0 : ¬t.val % 8 = 0) (h1 : t.val % 8 = 7) :
    accAt m c t.val t.isLt = soutC c (grid0.coords t) (ms0 t) (hs0 t) (ms1 t) (hs1 t) (ms2 t) (hs2 t) (ms3 t) (hs3 t) scM (Memref.isWhole_whole _) (fun h => h0 ((hcond0 t).mp h)) ((hcond1 t).mpr h1) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's staging buffer holds after the body at point `t`: at a point of the third kind the replicated
    running sum; elsewhere the window is idle and this value is never consulted. -/
def outAt (c : Dev nD) (t : Fin cfg0.N) : Vec F S1x8x128 .f32 :=
  if h1 : t.val % 8 = 7 then
    outC c (grid0.coords t) (ms0 t) (hs0 t) (ms1 t) (hs1 t) (ms2 t) (hs2 t) (ms3 t) (hs3 t) scM (Memref.isWhole_whole _) (fun h => (by omega : ¬t.val % 8 = 0) ((hcond0 t).mp h)) ((hcond1 t).mpr h1) (iblk m c 0 t) (iblk m c 1 t) (iblk m c 2 t)
      (accAt m c (t.val - 1) (Nat.lt_of_le_of_lt (Nat.sub_le _ _) t.isLt))
  else VO.read (Elt F) VO.junk

theorem outAt_C (c : Dev nD) (t : Fin cfg0.N) (h0 : ¬t.val % 8 = 0) (h1 : t.val % 8 = 7) :
    outAt m c t = outC c (grid0.coords t) (ms0 t) (hs0 t) (ms1 t) (hs1 t) (ms2 t) (hs2 t) (ms3 t) (hs3 t) scM (Memref.isWhole_whole _) (fun h => h0 ((hcond0 t).mp h)) ((hcond1 t).mpr h1) (iblk m c 0 t) (iblk m c 1 t) (iblk m c 2 t)
      (accAt m c (t.val - 1) (Nat.lt_of_le_of_lt (Nat.sub_le _ _) t.isLt)) := by
  unfold outAt; exact dif_pos h1

/-! ## The invariant carried between points -/

/-- Before the first point: the scratch word at anything. Before point `n + 1`: the scratch word at what point `n`
    left. The generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the launch finds them; after the body each input's buffer at its block and the result's at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]

set_option maxHeartbeats 4800000 in
/-- The body at any point: the inputs' staging buffers hold their blocks; the closed forms say which kind the point is;
    the invariant hands the body the scratch word at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 16 := lt_of_lt_of_eq t.isLt (show cfg0.N = 16 from N_0)
  by_cases h0 : t.val % 8 = 0
  · have h1 : ¬t.val % 8 = 7 := by omega
    rw [Dat.leavesExact_idle (dats m 0 c) 3 t (idleAt3 t (fun h => h1 ((hcond1 t).mp h))) (noFlush3 t (fun h => h1 ((hcond1 t).mp h)))]
    rw [accAt_A m c t h0 h1]
    unfold soutA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond0 t).mpr h0) (fun h => h1 ((hcond1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond0 t).mpr h0) (fun h => h1 ((hcond1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms3 t) fullShare ((dats m 0 c).after 3 t) from by
        unfold Dat.leavesExact; rw [liveAt3 t ((hcond1 t).mpr h1)], after3]
      rw [outAt_C m c t h0 h1, accAt_C m c t h0 h1]
      unfold outC soutC; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runC c (grid0.coords t) _ _ _ _ _ _ _ _ _ _ (fun h => h0 ((hcond0 t).mp h)) ((hcond1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e5, H5⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H5
      ipureintro; exact View.read_writes_of_cover _ _ _ _ _ (coverC c _ _ _ _ _ _ _ _ _ _ _ _ _ _ _ _ _)
    · rw [Dat.leavesExact_idle (dats m 0 c) 3 t (idleAt3 t (fun h => h1 ((hcond1 t).mp h))) (noFlush3 t (fun h => h1 ((hcond1 t).mp h)))]
      rw [accAt_B m c t h0 h1]
      unfold soutB; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runB c (grid0.coords t) _ _ _ _ _ _ _ _ _ _ (fun h => h0 ((hcond0 t).mp h)) (fun h => h1 ((hcond1 t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's own back: the scratch word's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and in every final state each array of the launch holds what the
    library computes from the proof data, every other buffer what the host operations after the launch leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.FrameKit.lean ====
/-
  The setting of the frame proof: the program around its one launch, and the launch's schedule.

  @main is ten host operations (they build the augmented right factor from the third argument), the launch, and
  six host operations (a sum of the launch's result and two divisions).  The launch walks a 2 x 8 grid of 16 points
  in order; point t reads rows 256 t .. 256 t + 255 of the first two arguments and the whole augmented factor, adds
  its contribution to a one-word running sum that lives in scratch memory (reset when the second grid coordinate is
  0), and when the second coordinate is 7 writes the running sum, replicated, into block (t / 8) of the result.

  Stated here: the contents of every buffer when the launch begins (`V`), each window's block at a point (`iblk`),
  that an input's staging buffer holds its block at every point, the two branch conditions of the body in closed form
  over the grid, where the result's window is idle, and how a run to the library's frame postcondition gives the
  claim "the three arguments end as they began".
-/
import proofs.«104621_j30631706755178_2_alg».proof.Proof.Gen.KernelIdeal.Launch
import proofs.«104621_j30631706755178_2_alg».proof.Proof.Gen.KernelIdeal.Skeleton
import proofs.«104621_j30631706755178_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The contents of core `c`'s buffers when the launch begins: the launch memory after the ten host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the launch allocates. -/
theorem hostOps0_fresh : (hostOps0 : List (HloOp τ sig (Elt F))).Forall fun op => op.fresh = ∅ := by
  simp only [List.Forall]; repeat' constructor
/-- Nor does one after it. -/
theorem hostOps1_fresh : (hostOps1 : List (HloOp τ sig (Elt F))).Forall fun op => op.fresh = ∅ := by
  simp only [List.Forall]; repeat' constructor

/-- @main is: the host operations before the launch, the launch, and the host operations after it as the launch's
    continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch only the launch's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes an array of the launch: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.nullary_writes, StableHlo.binary_writes, Finset.mem_singleton] <;> exact StableHlo.devRef_ne_of_ne (by decide)

/-- No host operation before the launch writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the third. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input holds the point's block at every point, for any proof data whose array is
    the launch-time contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the third input, which is fetched once: its block index never moves. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claim "the arguments end as they began" from a run to the library's frame postcondition -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's two branch conditions, over the grid -/

/-- "The second grid coordinate is 0": the condition under which the running sum is reset. -/
abbrev cond0 (i : grid0.Coords) : Prop := (Scalar.cmpi .ne (Scalar.extui (Scalar.cmpi .eq (BitVec.ofNat 32 (i 1).val) 0#32)) 0#32) = 1#1
/-- It holds exactly at the points that are multiples of 8. -/
theorem hcond0 : ∀ t : Fin cfg0.N, cond0 (grid0.coords t) ↔ t.val % 8 = 0 :=
  (by decide +kernel : ∀ t : Fin grid0.N, cond0 (grid0.coords t) ↔ t.val % 8 = 0)

/-- "The second grid coordinate is 7": the condition under which the result block is stored. -/
abbrev cond1 (i : grid0.Coords) : Prop := k0_cond2 i = 1#1
/-- It holds exactly at the points that are 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Where the result block is not stored, its window is idle and is not written back. -/
theorem idleAt3 : ∀ t : Fin cfg0.N, ¬cond1 (grid0.coords t) → cfg0.idle 3 (grid0.coords t) = true := by decide +kernel
theorem noFlush3 : ∀ t : Fin cfg0.N, ¬cond1 (grid0.coords t) → (cfg0.win 3).flush t = false := by decide +kernel
/-- Where it is stored, the window is live. -/
theorem liveAt3 : ∀ t : Fin cfg0.N, cond1 (grid0.coords t) → cfg0.idle 3 (grid0.coords t) = false := by decide +kernel

/-! ## The memrefs the body is called with -/

abbrev ms0 (t : Fin cfg0.N) : Memref sig .tc .vmem S256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)
/-- The one-word scratch buffer that carries the running sum. -/
abbrev scM : Memref sig .tc .vmem S1x1 .f32 := Memref.whole cc0_scratch0

/-- The launch's own invariant: the scratch buffer at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.RunA.lean ====
/-
  The body at the first point of each half of the grid (second coordinate 0): the running sum is reset to zero, then the
  tile's contribution is added; nothing is stored into the result's block.
-/
import proofs.«104621_j30631706755178_2_alg».proof.Proof.FrameKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, called at a grid point `i` on whole staging memrefs holding the three input blocks `x0`, `x1`, `x2`,
    runs to its end without a fault; it leaves the inputs as they were, and what it stores is recorded as a list of
    pieces (a rectangle and the value stored there), found by running the body symbolically. -/
noncomputable def runA (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : cond0 i) (hc1 : ¬cond1 i)
    (x0 : Vec F S256x8192 .f32) (x1 : Vec F S256x128 .f32) (x2 : Vec F S8192x256 .bf16) :
    { LS : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, fun xi E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    iexists _; iexact HS

end Cert.KernelIdeal.Fr

end
-- ==== Proof.RunB.lean ====
/-
  The body at a point strictly inside a half of the grid (second coordinate 1..6): the tile's contribution is added to the
  running sum `xs` the point before left; nothing is stored into the result's block.
-/
import proofs.«104621_j30631706755178_2_alg».proof.Proof.FrameKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, called at a grid point `i` on whole staging memrefs holding the three input blocks `x0`, `x1`, `x2`,
    runs to its end without a fault; it leaves the inputs as they were, and what it stores is recorded as a list of
    pieces (a rectangle and the value stored there), found by running the body symbolically. -/
noncomputable def runB (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : ¬cond1 i)
    (x0 : Vec F S256x8192 .f32) (x1 : Vec F S256x128 .f32) (x2 : Vec F S8192x256 .bf16) (xs : Vec F S1x1 .f32) :
    { LS : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, fun xi E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf5; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    iexists _; iexact HS

end Cert.KernelIdeal.Fr

end
-- ==== Proof.RunC.lean ====
/-
  The body at the last point of each half of the grid (second coordinate 7): the tile's contribution is added to the
  running sum `xs` the point before left, and the new sum, replicated, is stored over the whole result block.
-/
import proofs.«104621_j30631706755178_2_alg».proof.Proof.FrameKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, called at a grid point `i` on whole staging memrefs holding the three input blocks `x0`, `x1`, `x2`,
    runs to its end without a fault; it leaves the inputs as they were, and what it stores is recorded as a list of
    pieces (a rectangle and the value stored there), found by running the body symbolically. -/
noncomputable def runC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) :
    Σ' (L5 : List (View.Piece (Elt F) S1x8x128 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

end Cert.KernelIdeal.Fr

end
-- ==== Proof.Frame.lean ====
/-
  The frame of the idealized kernel: the program runs to its end, nothing faults, and the three arguments end as
  they began.

  The launch's 16 points fall in three kinds by the second grid coordinate k = t mod 8:  k = 0 (the running sum is
  reset, then the tile's contribution added), 0 < k < 7 (the contribution added to what the point before left), and
  k = 7 (the same, and the new sum written to the result's block).  `accAt n` is what the scratch word holds after
  point n, by recursion on n through the three kinds; `outAt t` is what the result's staging buffer holds after a
  point of the third kind.  The invariant carried from point to point says the scratch word holds `accAt` of the
  point before; the proof data hand every input's block back unchanged.
-/
import proofs.«104621_j30631706755178_2_alg».proof.Proof.RunA
import proofs.«104621_j30631706755178_2_alg».proof.Proof.RunB
import proofs.«104621_j30631706755178_2_alg».proof.Proof.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result's window and the scratch word, as views: stored contents are stated through them. -/
abbrev VO : View sig .tc .vmem S1x8x128 .f32 := (Memref.whole cc0_stg3_0 : Memref sig .tc .vmem S1x8x128 .f32).view
abbrev VS : View sig .tc .vmem S1x1 .f32 := scM.view

/-! ## What each kind of point leaves -/

/-- The stores of a point of the first kind cover the scratch word. -/
theorem scoverA (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : cond0 i) (hc1 : ¬cond1 i)
    (x0 : Vec F S256x8192 .f32) (x1 : Vec F S256x128 .f32) (x2 : Vec F S8192x256 .bf16) (y : S1x1.Idx) :
    ∃ pc ∈ (runA c i arg2 harg2 arg3 harg3 arg4 harg4 arg5 harg5 arg6 harg6 hc0 hc1 x0 x1 x2).1, y ∈ pc.1.set :=
  View.cover_of_tiledL (runA c i arg2 harg2 arg3 harg3 arg4 harg4 arg5 harg5 arg6 harg6 hc0 hc1 x0 x1 x2).1 S1x1.size (by sl_kernel_rfl) y
/-- What a point of the first kind leaves in the scratch word. -/
def soutA (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : cond0 i) (hc1 : ¬cond1 i)
    (x0 : Vec F S256x8192 .f32) (x1 : Vec F S256x128 .f32) (x2 : Vec F S8192x256 .bf16) : Vec F S1x1 .f32 :=
  VS.read (Elt F) (VS.writes (Elt F) VS.junk (runA c i arg2 harg2 arg3 harg3 arg4 harg4 arg5 harg5 arg6 harg6 hc0 hc1 x0 x1 x2).1)

/-- The store of a point of the second kind covers the scratch word. -/
theorem scoverB (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : ¬cond1 i)
    (x0 : Vec F S256x8192 .f32) (x1 : Vec F S256x128 .f32) (x2 : Vec F S8192x256 .bf16) (xs : Vec F S1x1 .f32) (y : S1x1.Idx) :
    ∃ pc ∈ (runB c i arg2 harg2 arg3 harg3 arg4 harg4 arg5 harg5 arg6 harg6 hc0 hc1 x0 x1 x2 xs).1, y ∈ pc.1.set :=
  View.cover_of_tiledL (runB c i arg2 harg2 arg3 harg3 arg4 harg4 arg5 harg5 arg6 harg6 hc0 hc1 x0 x1 x2 xs).1 S1x1.size (by sl_kernel_rfl) y
/-- What a point of the second kind leaves in the scratch word. -/
def soutB (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : ¬cond1 i)
    (x0 : Vec F S256x8192 .f32) (x1 : Vec F S256x128 .f32) (x2 : Vec F S8192x256 .bf16) (xs : Vec F S1x1 .f32) : Vec F S1x1 .f32 :=
  VS.read (Elt F) (VS.writes (Elt F) VS.junk (runB c i arg2 harg2 arg3 harg3 arg4 harg4 arg5 harg5 arg6 harg6 hc0 hc1 x0 x1 x2 xs).1)

/-- The store of a point of the third kind into the result's block covers it. -/
theorem coverC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) (y : S1x8x128.Idx) :
    ∃ pc ∈ (runC c i arg2 harg2 arg3 harg3 arg4 harg4 arg5 harg5 arg6 harg6 hc0 hc1 x0 x1 x2 xs).1, y ∈ pc.1.set :=
  View.cover_of_tiledL (runC c i arg2 harg2 arg3 harg3 arg4 harg4 arg5 harg5 arg6 harg6 hc0 hc1 x0 x1 x2 xs).1 S1x8x128.size (by sl_kernel_rfl) y
/-- What a point of the third kind leaves in the result's staging buffer. -/
def outC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) : Vec F S1x8x128 .f32 :=
  VO.read (Elt F) (VO.writes (Elt F) VO.junk (runC c i arg2 harg2 arg3 harg3 arg4 harg4 arg5 harg5 arg6 harg6 hc0 hc1 x0 x1 x2 xs).1)
/-- Its store into the scratch word covers it. -/
theorem scoverC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) (y : S1x1.Idx) :
    ∃ pc ∈ (runC c i arg2 harg2 arg3 harg3 arg4 harg4 arg5 harg5 arg6 harg6 hc0 hc1 x0 x1 x2 xs).2.1, y ∈ pc.1.set :=
  View.cover_of_tiledL (runC c i arg2 harg2 arg3 harg3 arg4 harg4 arg5 harg5 arg6 harg6 hc0 hc1 x0 x1 x2 xs).2.1 S1x1.size (by sl_kernel_rfl) y
/-- What a point of the third kind leaves in the scratch word. -/
def soutC (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) : Vec F S1x1 .f32 :=
  VS.read (Elt F) (VS.writes (Elt F) VS.junk (runC c i arg2 harg2 arg3 harg3 arg4 harg4 arg5 harg5 arg6 harg6 hc0 hc1 x0 x1 x2 xs).2.1)

/-! ## The running sum point by point -/

/-- What the scratch word holds after the body at point `n`: the kind of the point is read off `n mod 8`, and a
    point of the second or third kind starts from what point `n - 1` left. -/
def accAt (c : Dev nD) : (n : ℕ) → n < cfg0.N → Vec F S1x1 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcond0 ⟨0, hn⟩).mpr (Nat.zero_mod _))
      (fun h => (fun h => by (try dsimp only at h); omega) ((hcond1 ⟨0, hn⟩).mp h)) (iblk m c 0 ⟨0, hn⟩) (iblk m c 1 ⟨0, hn⟩) (iblk m c 2 ⟨0, hn⟩)
  | n + 1, hn =>
    if h0 : (n + 1) % 8 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcond0 ⟨n + 1, hn⟩).mpr h0)
        (fun h => (fun h7 => by (try dsimp only at h7); omega) ((hcond1 ⟨n + 1, hn⟩).mp h)) (iblk m c 0 ⟨n + 1, hn⟩) (iblk m c 1 ⟨n + 1, hn⟩) (iblk m c 2 ⟨n + 1, hn⟩)
    else if h1 : (n + 1) % 8 = 7 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcond0 ⟨n + 1, hn⟩).mp h)) ((hcond1 ⟨n + 1, hn⟩).mpr h1)
        (iblk m c 0 ⟨n + 1, hn⟩) (iblk m c 1 ⟨n + 1, hn⟩) (iblk m c 2 ⟨n + 1, hn⟩) (accAt c n (Nat.lt_of_succ_lt hn))
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcond0 ⟨n + 1, hn⟩).mp h)) (fun h => h1 ((hcond1 ⟨n + 1, hn⟩).mp h))
        (iblk m c 0 ⟨n + 1, hn⟩) (iblk m c 1 ⟨n + 1, hn⟩) (iblk m c 2 ⟨n + 1, hn⟩) (accAt c n (Nat.lt_of_succ_lt hn))

/-- `accAt` at a point of the first kind. -/
theorem accAt_A (c : Dev nD) (t : Fin cfg0.N) (h0 : t.val % 8 = 0) (h1 : ¬t.val % 8 = 7) :
    accAt m c t.val t.isLt = soutA c (grid0.coords t) (ms0 t) (hs0 t) (ms1 t) (hs1 t) (ms2 t) (hs2 t) (ms3 t) (hs3 t) scM (Memref.isWhole_whole _) ((hcond0 t).mpr h0) (fun h => h1 ((hcond1 t).mp h)) (iblk m c 0 t) (iblk m c 1 t) (iblk m c 2 t) := by
  obtain ⟨n, hn⟩ := t
  cases n with
  | zero => exact rfl
  | succ n => exact (dif_pos h0).trans rfl

/-- `accAt` at a point of the second kind, over what the point before left. -/
theorem accAt_B (c : Dev nD) (t : Fin cfg0.N) (h0 : ¬t.val % 8 = 0) (h1 : ¬t.val % 8 = 7) :
    accAt m c t.val t.isLt = soutB c (grid0.coords t) (ms0 t) (hs0 t) (ms1 t) (hs1 t) (ms2 t) (hs2 t) (ms3 t) (hs3 t) scM (Memref.isWhole_whole _) (fun h => h0 ((hcond0 t).mp h)) (fun h => h1 ((hcond1 t).mp h)) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a point of the third kind, over what the point before left. -/
theorem accAt_C (c : Dev nD) (t : Fin cfg0.N) (h0 : ¬t.val % 8 = 0) (h1 : t.val % 8 = 7) :
    accAt m c t.val t.isLt = soutC c (grid0.coords t) (ms0 t) (hs0 t) (ms1 t) (hs1 t) (ms2 t) (hs2 t) (ms3 t) (hs3 t) scM (Memref.isWhole_whole _) (fun h => h0 ((hcond0 t).mp h)) ((hcond1 t).mpr h1) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's staging buffer holds after the body at point `t`: at a point of the third kind the replicated
    running sum; elsewhere the window is idle and this value is never consulted. -/
def outAt (c : Dev nD) (t : Fin cfg0.N) : Vec F S1x8x128 .f32 :=
  if h1 : t.val % 8 = 7 then
    outC c (grid0.coords t) (ms0 t) (hs0 t) (ms1 t) (hs1 t) (ms2 t) (hs2 t) (ms3 t) (hs3 t) scM (Memref.isWhole_whole _) (fun h => (by omega : ¬t.val % 8 = 0) ((hcond0 t).mp h)) ((hcond1 t).mpr h1) (iblk m c 0 t) (iblk m c 1 t) (iblk m c 2 t)
      (accAt m c (t.val - 1) (Nat.lt_of_le_of_lt (Nat.sub_le _ _) t.isLt))
  else VO.read (Elt F) VO.junk

theorem outAt_C (c : Dev nD) (t : Fin cfg0.N) (h0 : ¬t.val % 8 = 0) (h1 : t.val % 8 = 7) :
    outAt m c t = outC c (grid0.coords t) (ms0 t) (hs0 t) (ms1 t) (hs1 t) (ms2 t) (hs2 t) (ms3 t) (hs3 t) scM (Memref.isWhole_whole _) (fun h => h0 ((hcond0 t).mp h)) ((hcond1 t).mpr h1) (iblk m c 0 t) (iblk m c 1 t) (iblk m c 2 t)
      (accAt m c (t.val - 1) (Nat.lt_of_le_of_lt (Nat.sub_le _ _) t.isLt)) := by
  unfold outAt; exact dif_pos h1

/-! ## The invariant carried between points -/

/-- Before the first point: the scratch word at anything. Before point `n + 1`: the scratch word at what point `n`
    left. The generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the launch finds them; after the body each input's buffer at its block and the result's at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]

set_option maxHeartbeats 4800000 in
/-- The body at any point: the inputs' staging buffers hold their blocks; the closed forms say which kind the point is;
    the invariant hands the body the scratch word at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 16 := lt_of_lt_of_eq t.isLt (show cfg0.N = 16 from N_0)
  by_cases h0 : t.val % 8 = 0
  · have h1 : ¬t.val % 8 = 7 := by omega
    rw [Dat.leavesExact_idle (dats m 0 c) 3 t (idleAt3 t (fun h => h1 ((hcond1 t).mp h))) (noFlush3 t (fun h => h1 ((hcond1 t).mp h)))]
    rw [accAt_A m c t h0 h1]
    unfold soutA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond0 t).mpr h0) (fun h => h1 ((hcond1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond0 t).mpr h0) (fun h => h1 ((hcond1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms3 t) fullShare ((dats m 0 c).after 3 t) from by
        unfold Dat.leavesExact; rw [liveAt3 t ((hcond1 t).mpr h1)], after3]
      rw [outAt_C m c t h0 h1, accAt_C m c t h0 h1]
      unfold outC soutC; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runC c (grid0.coords t) _ _ _ _ _ _ _ _ _ _ (fun h => h0 ((hcond0 t).mp h)) ((hcond1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e5, H5⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H5
      ipureintro; exact View.read_writes_of_cover _ _ _ _ _ (coverC c _ _ _ _ _ _ _ _ _ _ _ _ _ _ _ _ _)
    · rw [Dat.leavesExact_idle (dats m 0 c) 3 t (idleAt3 t (fun h => h1 ((hcond1 t).mp h))) (noFlush3 t (fun h => h1 ((hcond1 t).mp h)))]
      rw [accAt_B m c t h0 h1]
      unfold soutB; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runB c (grid0.coords t) _ _ _ _ _ _ _ _ _ _ (fun h => h0 ((hcond0 t).mp h)) (fun h => h1 ((hcond1 t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's own back: the scratch word's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and in every final state each array of the launch holds what the
    library computes from the proof data, every other buffer what the host operations after the launch leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.Pieces.lean ====
/-
  What each kind of grid point leaves, as the body's arithmetic: the pieces the symbolic run found are single stores
  over whole buffers at zero offsets, so what is read back is the stored value itself, and every load of a whole
  buffer at zero offsets is the buffer's contents.

    first kind   (the reset):      scratch := pay3 (blocks) (pay2)          -- the tile's contribution added to the zero word
    second kind:                   scratch := pay3 (blocks) (previous sum)
    third kind   (the last tile):  scratch := pay3 (blocks) (previous sum),   result block := pay1 (that new sum)

  where pay1, pay2, pay3 are the generated names of the body's three stored values (the replicated sum, the zero word,
  the updated sum).
-/
import proofs.«104621_j30631706755178_2_alg».proof.Proof.Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A point of the second kind leaves the updated sum over what it found. -/
theorem soutB_eq (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : ¬cond1 i)
    (x0 : Vec F S256x8192 .f32) (x1 : Vec F S256x128 .f32) (x2 : Vec F S8192x256 .bf16) (xs : Vec F S1x1 .f32) :
    soutB c i arg2 harg2 arg3 harg3 arg4 harg4 arg5 harg5 arg6 harg6 hc0 hc1 x0 x1 x2 xs = k0_pay3 x0 x1 x2 xs := by
  unfold soutB
  rw [View.read_writes_eq_canon _ _ _ (scoverB c i arg2 harg2 arg3 harg3 arg4 harg4 arg5 harg5 arg6 harg6 hc0 hc1 x0 x1 x2 xs)]
  unfold runB
  dsimp only
  rw [View.canon_unit_zero hz2]
  simp only [View.readAt_eq_ld, harg2.read_unread, harg3.read_unread, harg4.read_unread, harg6.read_unread,
    View.ld_unit_zero (S := S256x8192) hz2, View.ld_unit_zero (S := S256x128) hz2, View.ld_unit_zero (S := S8192x256) hz2,
    View.ld_unit_zero (S := S1x1) hz2]

/-- A point of the first kind stores the zero word, reads it back, and leaves the updated sum over it. -/
theorem soutA_eq (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : cond0 i) (hc1 : ¬cond1 i)
    (x0 : Vec F S256x8192 .f32) (x1 : Vec F S256x128 .f32) (x2 : Vec F S8192x256 .bf16) :
    soutA c i arg2 harg2 arg3 harg3 arg4 harg4 arg5 harg5 arg6 harg6 hc0 hc1 x0 x1 x2 = k0_pay3 x0 x1 x2 (k0_pay2 (F := F)) := by
  unfold soutA
  rw [View.read_writes_eq_canon _ _ _ (scoverA c i arg2 harg2 arg3 harg3 arg4 harg4 arg5 harg5 arg6 harg6 hc0 hc1 x0 x1 x2)]
  unfold runA
  dsimp only
  sl_unfold_words
  rw [View.canon_cons_unit_zero (S := S1x1) hz2, View.readCov_unit_zero (S := S1x1) _ hz2]
  simp only [View.readAt_eq_ld, harg2.read_unread, harg3.read_unread, harg4.read_unread, harg6.read_unread,
    View.ld_unit_zero (S := S256x8192) hz2, View.ld_unit_zero (S := S256x128) hz2, View.ld_unit_zero (S := S8192x256) hz2,
    View.ld_unit_zero (S := S1x1) hz2]

/-- A point of the third kind leaves the updated sum in the scratch word, -/
theorem soutC_eq (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) :
    soutC c i arg2 harg2 arg3 harg3 arg4 harg4 arg5 harg5 arg6 harg6 hc0 hc1 x0 x1 x2 xs = k0_pay3 x0 x1 x2 xs := by
  unfold soutC
  rw [View.read_writes_eq_canon _ _ _ (scoverC c i arg2 harg2 arg3 harg3 arg4 harg4 arg5 harg5 arg6 harg6 hc0 hc1 x0 x1 x2 xs)]
  unfold runC
  dsimp only
  sl_unfold_words
  rw [View.canon_unit_zero hz2]
  simp only [View.readAt_eq_ld, harg2.read_unread, harg3.read_unread, harg4.read_unread, harg6.read_unread,
    View.ld_unit_zero (S := S256x8192) hz2, View.ld_unit_zero (S := S256x128) hz2, View.ld_unit_zero (S := S8192x256) hz2,
    View.ld_unit_zero (S := S1x1) hz2]

/-- and that sum, read back and replicated, in the result's staging buffer. -/
theorem outC_eq (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x256 .bf16) (harg4 : arg4.IsWhole) (arg5 : Memref sig .tc .vmem S1x8x128 .f32) (harg5 : arg5.IsWhole) (arg6 : Memref sig .tc .vmem S1x1 .f32) (harg6 : arg6.IsWhole) (hc0 : ¬cond0 i) (hc1 : cond1 i)
    (x0 : Vec F S256x8192 .f32) (x1 : Vec F S256x128 .f32) (x2 : Vec F S8192x256 .bf16) (xs : Vec F S1x1 .f32) :
    outC c i arg2 harg2 arg3 harg3 arg4 harg4 arg5 harg5 arg6 harg6 hc0 hc1 x0 x1 x2 xs = k0_pay1 (k0_pay3 x0 x1 x2 xs) := by
  unfold outC
  rw [View.read_writes_eq_canon _ _ _ (coverC c i arg2 harg2 arg3 harg3 arg4 harg4 arg5 harg5 arg6 harg6 hc0 hc1 x0 x1 x2 xs)]
  unfold runC
  dsimp only
  sl_unfold_words
  rw [View.canon_unit_zero hz3, View.readCov_unit_zero (S := S1x1) _ hz2]
  simp only [View.readAt_eq_ld, harg2.read_unread, harg3.read_unread, harg4.read_unread, harg6.read_unread,
    View.ld_unit_zero (S := S256x8192) hz2, View.ld_unit_zero (S := S256x128) hz2, View.ld_unit_zero (S := S8192x256) hz2,
    View.ld_unit_zero (S := S1x1) hz2]

end Cert.KernelIdeal.Fr

end
-- ==== Proof.Spec.lean ====
/-
  The mathematics of the certificate, over the reals, with no program in sight.

  The inputs are a weight matrix `g` (4096 x 8192), row features `x` (4096 x 128) and column features `y`
  (8192 x 128).  The loss is

      ( sum_i rowdeg_i |x_i|^2  +  sum_j coldeg_j |y_j|^2  -  2 sum_{i,d} x_{id} (g y)_{id} ) / (4096 * 8192),

  with rowdeg_i = sum_j g_ij and coldeg_j = sum_i g_ij.  The kernel walks the rows in 16 tiles of 256 rows; on each
  tile it forms one product of the tile of `g` with the AUGMENTED matrix [ y | |y_j|^2 | 1 | 0 ... 0 ] (8192 x 256),
  whose column 128 gives sum_j g_rj |y_j|^2 and whose column 129 gives the row degree, and adds the tile's
  contribution `tile` to a running sum that is reset at the first tile of each half (8 tiles per half).
-/
import Idealize.ShloMosaic.Lib.ValueIdx

noncomputable section

open scoped BigOperators

namespace Cert.Spec

open Idealize.ShloMosaic Idealize.ShloMosaic.ValueIdx

/-- The inclusion of the reals in the extended reals commutes with finite sums. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A matrix of reals read as an array of extended reals. -/
def lift2 {a b : ℕ} (g : Fin a → Fin b → ℝ) : (⟨2, ![a, b]⟩ : Shape).Idx → EReal :=
  fun i => ((g (i 0) (i 1) : ℝ) : EReal)

/-- The squared length of row `i` of a matrix with 128 columns. -/
def sumSq {n : ℕ} (x : Fin n → Fin 128 → ℝ) (i : Fin n) : ℝ := ∑ d : Fin 128, x i d * x i d

/-- The loss: the three traces over the whole arrays, divided by the number of entries of `g`. -/
def loss (g : Fin 4096 → Fin 8192 → ℝ) (x : Fin 4096 → Fin 128 → ℝ) (y : Fin 8192 → Fin 128 → ℝ) : ℝ :=
  ((∑ i : Fin 4096, (∑ j : Fin 8192, g i j) * sumSq x i)
    + (∑ j : Fin 8192, (∑ i : Fin 4096, g i j) * sumSq y j)
    - 2 * (∑ i : Fin 4096, ∑ d : Fin 128, x i d * (∑ j : Fin 8192, g i j * y j d))) / 33554432

/-- One tile's contribution: 256 rows `g0` of the weights and `x0` of the row features against all of `y`. -/
def tile (g0 : Fin 256 → Fin 8192 → ℝ) (x0 : Fin 256 → Fin 128 → ℝ) (y : Fin 8192 → Fin 128 → ℝ) : ℝ :=
  ((∑ r : Fin 256, (∑ j : Fin 8192, g0 r j) * sumSq x0 r)
    + (∑ r : Fin 256, ∑ j : Fin 8192, g0 r j * sumSq y j))
    - 2 * (∑ r : Fin 256, ∑ d : Fin 128, x0 r d * (∑ j : Fin 8192, g0 r j * y j d))

/-- The augmented right factor: the columns of `y`, then the squared row lengths, then ones, then zeros. -/
def aug (y : Fin 8192 → Fin 128 → ℝ) (j : Fin 8192) (d : Fin 256) : ℝ :=
  if h : d.val < 128 then y j ⟨d.val, h⟩
  else if d.val = 128 then sumSq y j
  else if d.val = 129 then 1 else 0

/-- Row `r` of tile `t` is row `256 t + r` of the whole array. -/
def rowOf (t : Fin 16) (r : Fin 256) : Fin 4096 := ⟨256 * t.val + r.val, by omega⟩

/-- Tile `t` of the weights and of the row features. -/
def gblk (g : Fin 4096 → Fin 8192 → ℝ) (t : Fin 16) : Fin 256 → Fin 8192 → ℝ := fun r j => g (rowOf t r) j
def xblk (x : Fin 4096 → Fin 128 → ℝ) (t : Fin 16) : Fin 256 → Fin 128 → ℝ := fun r d => x (rowOf t r) d

/-- The running sum after tile `n`: reset to zero at the first tile of each half, then this tile's contribution added. -/
def acc (g : Fin 4096 → Fin 8192 → ℝ) (x : Fin 4096 → Fin 128 → ℝ) (y : Fin 8192 → Fin 128 → ℝ) :
    (n : ℕ) → n < 16 → ℝ
  | 0, h => 0 + tile (gblk g ⟨0, h⟩) (xblk x ⟨0, h⟩) y
  | n + 1, h => (if (n + 1) % 8 = 0 then 0 else acc g x y n (Nat.lt_of_succ_lt h))
      + tile (gblk g ⟨n + 1, h⟩) (xblk x ⟨n + 1, h⟩) y

end Cert.Spec

end
-- ==== Proof.PayIdeal.lean ====
/-
  The kernel body's arithmetic, read at the ideal values on real-valued blocks.

  At a grid point the body holds a 256 x 8192 tile g0 of the weights, the 256 x 128 tile x0 of the row features and the
  whole augmented factor A = [ y | |y_j|^2 | 1 | 0 ... 0 ] (8192 x 256).  It forms the one product C = g0 · A into a
  zero accumulator, so that

      C[r, d]   = sum_j g0[r, j] · y[j, d]      (d < 128),
      C[r, 128] = sum_j g0[r, j] · |y_j|^2,
      C[r, 129] = sum_j g0[r, j]                (the row degree),

  slices these three pieces out, and computes

      ( sum_r C[r, 129] · |x0_r|^2  +  sum_r C[r, 128] )  -  2 · sum_r sum_d x0[r, d] · C[r, d],

  every sum a reduction along one axis started from the zero word (0 + the sum), and adds the result to the running sum
  it loaded.  Over the extended reals, on blocks that are real matrices, nothing rounds and nothing is infinite: the value
  is the running sum plus `Cert.Spec.tile g0 x0 y`.

  The road: each operation that is not pointwise is first read at an index over ARBITRARY blocks — the product's entry
  (p, q) as the sum over the contraction coordinate, the three slices, the row sums (axis 1) and column sums (axis 0), the
  two casts that add a unit axis — then the three traces are assembled (`trace1`, `trace2`, `trace3`, `pay3_apply`),
  and last the blocks are taken real: the inclusion of the reals commutes with the finite sums and products, and the
  columns 0..127, 128 and 129 of the augmented factor are y, |y|^2 and 1 (`aug_lo`, `aug_128`, `aug_129`).
-/
import proofs.«104621_j30631706755178_2_alg».proof.Proof.Gen.KernelIdeal.Skeleton
import proofs.«104621_j30631706755178_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.Spec Cert.KernelIdeal Cert.KernelIdeal.Gen Idealize.ShloMosaic Idealize.ShloMosaic.ValueIdx

/-- With the one contracting axis (the columns of the left factor), the left factor's index at result entry (p, q) and
    contraction coordinate k is (p, k). -/
theorem lhsIdx_eq (p q : Fin 256) (k : Fin 8192) :
    dot_S256x8192_S8192x256_S256x256_1_0_0_1_n_n.lhsIdx (ix2 p q)
      ((contrEquiv1 dot_S256x8192_S8192x256_S256x256_1_0_0_1_n_n 8192 rfl rfl).symm k) = ix2 p k := by
  funext a
  refine Fin.ext ?_
  match a with
  | ⟨0, _⟩ =>
    simp [DotDims.lhsIdx, dot_S256x8192_S8192x256_S256x256_1_0_0_1_n_n]
    rfl
  | ⟨1, _⟩ =>
    refine (DotDims.lhsIdx_val_of_single dot_S256x8192_S8192x256_S256x256_1_0_0_1_n_n (cl := (1 : Fin 2)) rfl _ _).trans ?_
    exact contrEquiv1_symm_val _ 8192 rfl rfl k

/-- Likewise the right factor's index (its rows are contracted) is (k, q). -/
theorem rhsIdx_eq (p q : Fin 256) (k : Fin 8192) :
    dot_S256x8192_S8192x256_S256x256_1_0_0_1_n_n.rhsIdx (ix2 p q)
      ((contrEquiv1 dot_S256x8192_S8192x256_S256x256_1_0_0_1_n_n 8192 rfl rfl).symm k) = ix2 k q := by
  funext a
  refine Fin.ext ?_
  match a with
  | ⟨0, _⟩ =>
    refine (DotDims.rhsIdx_val_of_single dot_S256x8192_S8192x256_S256x256_1_0_0_1_n_n (cr := (0 : Fin 2)) rfl _ _).trans ?_
    exact contrEquiv1_symm_val _ 8192 rfl rfl k
  | ⟨1, _⟩ =>
    simp [DotDims.rhsIdx, dot_S256x8192_S8192x256_S256x256_1_0_0_1_n_n]
    rfl

/-- The product into the zero accumulator, at entry (p, q): the sum over k of lhs[p, k] · rhs[k, q]. -/
theorem matmul_entry (lhs : FVec Ideal S256x8192 .bf16) (rhs : FVec Ideal S8192x256 .bf16) (p q : Fin 256) :
    matmul dot_S256x8192_S8192x256_S256x256_1_0_0_1_n_n none lhs rhs (constant S256x256 .f32 0x00000000#32) (ix2 p q)
      = ∑ k : Fin 8192, lhs (ix2 p k) * rhs (ix2 k q) := by
  refine (Ideal.matmul_constant_zero_apply _ none lhs rhs (ix2 p q)).trans ?_
  rw [← Equiv.sum_comp (contrEquiv1 dot_S256x8192_S8192x256_S256x256_1_0_0_1_n_n 8192 rfl rfl).symm]
  refine Finset.sum_congr rfl fun k _ => ?_
  rw [lhsIdx_eq, rhsIdx_eq]

variable {α : Type}

/-- The slice of columns 0..127 reads the same row and column. -/
theorem slice_lo (v : S256x256.Idx → α) (h : S256x256.Slices ![0, 0] S256x128) (r : Fin 256) (d : Fin 128) :
    extractStridedSlice S256x128 ![0, 0] v h (ix2 r d) = v (ix2 r ⟨d.val, by omega⟩) :=
  extractStridedSlice_apply _ v h _ _ fun a => by
    match a with
    | ⟨0, _⟩ => show r.val = 0 + r.val; omega
    | ⟨1, _⟩ => show d.val = 0 + d.val; omega

/-- The one-column slice at column 128 reads that column. -/
theorem slice_128 (v : S256x256.Idx → α) (h : S256x256.Slices ![0, 128] S256x1) (r : Fin 256) (c : Fin 1) :
    extractStridedSlice S256x1 ![0, 128] v h (ix2 r c) = v (ix2 r ⟨128, by omega⟩) :=
  extractStridedSlice_apply _ v h _ _ fun a => by
    match a with
    | ⟨0, _⟩ => show r.val = 0 + r.val; omega
    | ⟨1, _⟩ => show 128 = 128 + c.val; omega

/-- The one-column slice at column 129 reads that column. -/
theorem slice_129 (v : S256x256.Idx → α) (h : S256x256.Slices ![0, 129] S256x1) (r : Fin 256) (c : Fin 1) :
    extractStridedSlice S256x1 ![0, 129] v h (ix2 r c) = v (ix2 r ⟨129, by omega⟩) :=
  extractStridedSlice_apply _ v h _ _ fun a => by
    match a with
    | ⟨0, _⟩ => show r.val = 0 + r.val; omega
    | ⟨1, _⟩ => show 129 = 129 + c.val; omega

/-- A column of 256 entries cast to a 256 x 1 array reads the row's entry. -/
theorem cast_col (v : S256.Idx → α) (h : S256.ShapeCasts S256x1) (r : Fin 256) (c : Fin 1) :
    shapeCast S256x1 v h (ix2 r c) = v (ix1 r) :=
  shapeCast_apply v h _ _ (by
    rw [Shape.rowMajor_val_one, Shape.rowMajor_val_two]
    show r.val = r.val * 1 + c.val
    omega)

/-- A one-entry vector cast to a 1 x 1 array reads the entry. -/
theorem cast_one (v : S1.Idx → α) (h : S1.ShapeCasts S1x1) (a b : Fin 1) :
    shapeCast S1x1 v h (ix2 a b) = v (ix1 0) :=
  shapeCast_apply v h _ _ (by
    rw [Shape.rowMajor_val_one, Shape.rowMajor_val_two]
    show (0 : Fin 1).val = a.val * 1 + b.val
    omega)

/-- The sum along the 128 columns of a 256 x 128 array, from the zero word, is the row's sum. -/
theorem rowsum (src : FVec Ideal S256x128 .f32) (h : S256x128.Reduces [1] S256) (hφ : FKind.Formats .f32)
    (hacc : (0x00000000#32 : BitVec 32) = FKind.add.neutral .f32 hφ) (r : Fin 256) :
    multiReduction .add [1] S256 src 0x00000000#32 h hφ hacc (ix1 r) = ∑ d : Fin 128, src (ix2 r d) := by
  refine (Ideal.multiReduction_add_single src _ h hφ hacc (ix1 r)).trans ?_
  refine Finset.sum_congr rfl fun d _ => congrArg src ?_
  funext a
  match a with
  | ⟨0, _⟩ => rfl
  | ⟨1, _⟩ => rfl

/-- The sum along the 256 rows of a 256 x 1 array, from the zero word, is the column's sum. -/
theorem colsum (src : FVec Ideal S256x1 .f32) (h : S256x1.Reduces [0] S1) (hφ : FKind.Formats .f32)
    (hacc : (0x00000000#32 : BitVec 32) = FKind.add.neutral .f32 hφ) (c : Fin 1) :
    multiReduction .add [0] S1 src 0x00000000#32 h hφ hacc (ix1 c) = ∑ r : Fin 256, src (ix2 r c) := by
  refine (Ideal.multiReduction_add_single src _ h hφ hacc (ix1 c)).trans ?_
  refine Finset.sum_congr rfl fun r _ => congrArg src ?_
  funext a
  match a with
  | ⟨0, _⟩ => rfl
  | ⟨1, _⟩ => rfl

/-- The f32 word 0x40000000 is the real number two. -/
theorem ofBits_two_f32 : Ideal.ofBits .f32 0x40000000#32 = ((2 : ℝ) : EReal) := by
  simp [Ideal.ofBits, Ideal.ieee, -EReal.coe_mul]; norm_num

/-- The product of two real matrices read as extended reals, into the zero accumulator, is the real product. -/
theorem matmul_real (g : Fin 256 → Fin 8192 → ℝ) (A : Fin 8192 → Fin 256 → ℝ) (p q : Fin 256) :
    matmul (F := Ideal) (φ₁ := .bf16) (φ₂ := .bf16) dot_S256x8192_S8192x256_S256x256_1_0_0_1_n_n none (lift2 g) (lift2 A) (constant S256x256 .f32 0x00000000#32) (ix2 p q)
      = ((∑ k : Fin 8192, g p k * A k q : ℝ) : EReal) := by
  refine (matmul_entry _ _ p q).trans ?_
  rw [coe_sum]
  exact Finset.sum_congr rfl fun k _ => (EReal.coe_mul _ _).symm

/-- First trace: the sum over the rows of (column 129 of the product) times (the row's squared length). -/
theorem trace1 (C : FVec Ideal S256x256 .f32) (X : FVec Ideal S256x128 .f32) (u w : Fin 1) :
    shapeCast S1x1 (multiReduction .add [0] S1
      (mulf (extractStridedSlice S256x1 ![0, 129] C slices_S256x256_o0_129_S256x1)
        (shapeCast S256x1 (multiReduction .add [1] S256 (mulf X X) 0x00000000#32 reduces_S256x128_S256 (.inl rfl) rfl) shapeCasts_S256_S256x1))
      0x00000000#32 reduces_S256x1_S1 (.inl rfl) rfl) shapeCasts_S1_S1x1 (ix2 u w)
      = ∑ r : Fin 256, C (ix2 r ⟨129, by omega⟩) * ∑ d : Fin 128, X (ix2 r d) * X (ix2 r d) := by
  refine (cast_one _ _ u w).trans ?_
  refine (colsum _ _ _ _ 0).trans ?_
  refine Finset.sum_congr rfl fun r _ => ?_
  refine (mulf_apply _ _ _).trans ?_
  refine congrArg₂ (· * ·) (slice_129 _ _ r 0) ?_
  refine (cast_col _ _ r 0).trans ?_
  refine (rowsum _ _ _ _ r).trans ?_
  rfl

/-- Second trace: the sum over the rows of column 128 of the product. -/
theorem trace2 (C : FVec Ideal S256x256 .f32) (u w : Fin 1) :
    shapeCast S1x1 (multiReduction .add [0] S1
      (extractStridedSlice S256x1 ![0, 128] C slices_S256x256_o0_128_S256x1)
      0x00000000#32 reduces_S256x1_S1 (.inl rfl) rfl) shapeCasts_S1_S1x1 (ix2 u w)
      = ∑ r : Fin 256, C (ix2 r ⟨128, by omega⟩) := by
  refine (cast_one _ _ u w).trans ?_
  refine (colsum _ _ _ _ 0).trans ?_
  exact Finset.sum_congr rfl fun r _ => slice_128 _ _ r 0

/-- Third trace: the sum over rows and the first 128 columns of the features times the product. -/
theorem trace3 (C : FVec Ideal S256x256 .f32) (X : FVec Ideal S256x128 .f32) (u w : Fin 1) :
    shapeCast S1x1 (multiReduction .add [0] S1
      (shapeCast S256x1 (multiReduction .add [1] S256
        (mulf X (extractStridedSlice S256x128 ![0, 0] C slices_S256x256_o0_0_S256x128))
        0x00000000#32 reduces_S256x128_S256 (.inl rfl) rfl) shapeCasts_S256_S256x1)
      0x00000000#32 reduces_S256x1_S1 (.inl rfl) rfl) shapeCasts_S1_S1x1 (ix2 u w)
      = ∑ r : Fin 256, ∑ d : Fin 128, X (ix2 r d) * C (ix2 r ⟨d.val, by omega⟩) := by
  refine (cast_one _ _ u w).trans ?_
  refine (colsum _ _ _ _ 0).trans ?_
  refine Finset.sum_congr rfl fun r _ => ?_
  refine (cast_col _ _ r 0).trans ?_
  refine (rowsum _ _ _ _ r).trans ?_
  refine Finset.sum_congr rfl fun d _ => ?_
  refine (mulf_apply _ _ _).trans ?_
  exact congrArg (X (ix2 r d) * ·) (slice_lo _ _ r d)

/-- A real matrix read as extended reals, at the index (p, q), is the entry. -/
theorem lift2_ix2 {m n : ℕ} (g : Fin m → Fin n → ℝ) (p : Fin m) (q : Fin n) : lift2 g (ix2 p q) = ((g p q : ℝ) : EReal) := rfl

/-- The first 128 columns of the augmented factor are the columns of y, -/
theorem aug_lo (y : Fin 8192 → Fin 128 → ℝ) (k : Fin 8192) (d : Fin 128) : aug y k ⟨d.val, by omega⟩ = y k d := by
  unfold aug
  rw [dif_pos (show (⟨d.val, by omega⟩ : Fin 256).val < 128 from d.isLt)]
/-- column 128 is the squared row length of y, -/
theorem aug_128 (y : Fin 8192 → Fin 128 → ℝ) (k : Fin 8192) : aug y k ⟨128, by omega⟩ = sumSq y k := by
  simp [aug]
/-- and column 129 is one. -/
theorem aug_129 (y : Fin 8192 → Fin 128 → ℝ) (k : Fin 8192) : aug y k ⟨129, by omega⟩ = 1 := by
  simp [aug]

/-- A tile's contribution written through the product g0 · [ y | |y|^2 | 1 | 0 ]. -/
theorem tile_eq (g0 : Fin 256 → Fin 8192 → ℝ) (x0 : Fin 256 → Fin 128 → ℝ) (y : Fin 8192 → Fin 128 → ℝ) :
    tile g0 x0 y
      = ((∑ r : Fin 256, (∑ k : Fin 8192, g0 r k * aug y k ⟨129, by omega⟩) * ∑ d : Fin 128, x0 r d * x0 r d)
          + ∑ r : Fin 256, ∑ k : Fin 8192, g0 r k * aug y k ⟨128, by omega⟩)
        - 2 * ∑ r : Fin 256, ∑ d : Fin 128, x0 r d * ∑ k : Fin 8192, g0 r k * aug y k ⟨d.val, by omega⟩ := by
  simp only [aug_lo, aug_128, aug_129, mul_one]
  rfl

/-- The payload read at its one index, over any blocks: the loaded running sum plus
    (first trace + second trace) - 2 · (third trace), the traces over the product C = G · A. -/
theorem pay3_apply (G : Vec Ideal S256x8192 .f32) (X : Vec Ideal S256x128 .f32) (A : Vec Ideal S8192x256 .bf16)
    (acc : Vec Ideal S1x1 .f32) (u w : Fin 1) :
    k0_pay3 (F := Ideal) G X A acc (ix2 u w)
      = acc (ix2 u w)
        + (((∑ r : Fin 256, matmul (F := Ideal) (φ₁ := .bf16) (φ₂ := .bf16) dot_S256x8192_S8192x256_S256x256_1_0_0_1_n_n none G A (constant S256x256 .f32 0x00000000#32) (ix2 r ⟨129, by omega⟩)
              * ∑ d : Fin 128, X (ix2 r d) * X (ix2 r d))
            + ∑ r : Fin 256, matmul (F := Ideal) (φ₁ := .bf16) (φ₂ := .bf16) dot_S256x8192_S8192x256_S256x256_1_0_0_1_n_n none G A (constant S256x256 .f32 0x00000000#32) (ix2 r ⟨128, by omega⟩))
          - Ideal.ofBits .f32 0x40000000#32
            * ∑ r : Fin 256, ∑ d : Fin 128, X (ix2 r d) * matmul (F := Ideal) (φ₁ := .bf16) (φ₂ := .bf16) dot_S256x8192_S8192x256_S256x256_1_0_0_1_n_n none G A (constant S256x256 .f32 0x00000000#32) (ix2 r ⟨d.val, by omega⟩)) := by
  unfold k0_pay3
  dsimp only
  rw [shapeCast_self A]
  refine (congrFun (shapeCast_self _ _) (ix2 u w)).trans ?_
  refine (addf_apply _ _ _).trans ?_
  refine congrArg (acc (ix2 u w) + ·) ?_
  refine (subf_apply _ _ _).trans ?_
  refine congrArg₂ (· - ·) ?_ ?_
  · refine (addf_apply _ _ _).trans ?_
    refine congrArg₂ (· + ·) ?_ ?_
    · exact trace1 _ _ u w
    · exact trace2 _ u w
  · refine (mulf_apply _ _ _).trans ?_
    refine congrArg₂ (· * ·) rfl ?_
    exact trace3 _ _ u w

/-- Over real blocks the payload is the running sum plus the tile's contribution. -/
theorem pay3_real (g0 : Fin 256 → Fin 8192 → ℝ) (x0 : Fin 256 → Fin 128 → ℝ) (y : Fin 8192 → Fin 128 → ℝ) (a : ℝ) :
    k0_pay3 (F := Ideal) (lift2 g0) (lift2 x0) (lift2 (aug y)) (fun _ => ((a : ℝ) : EReal))
      = fun _ => (((a + tile g0 x0 y : ℝ)) : EReal) := by
  funext i
  obtain ⟨u, w, rfl⟩ : ∃ u w, i = ix2 u w := ⟨i 0, i 1, eq_ix2 i⟩
  refine (pay3_apply _ _ _ _ u w).trans ?_
  simp only [matmul_real, lift2_ix2, ofBits_two_f32]
  rw [tile_eq]
  simp only [EReal.coe_add, EReal.coe_sub, EReal.coe_mul, coe_sum]

/-- The reset value is the zero word: the real number zero. -/
theorem pay2_real : k0_pay2 (F := Ideal) = fun _ => ((0 : ℝ) : EReal) := by
  funext i
  unfold k0_pay2
  refine (congrFun (shapeCast_self _ _) i).trans ?_
  show Ideal.ofBits .f32 0x00000000#32 = _
  rw [Ideal.ofBits_zero_f32, EReal.coe_zero]

/-- The output block is the scratch value at every index. -/
theorem pay1_apply (v : Vec Ideal S1x1 .f32) (i : S1x8x128.Idx) : k0_pay1 (F := Ideal) v i = v (ix2 0 0) := by
  unfold k0_pay1
  refine (broadcastTo_apply _ broadcasts_S1x1x1_S1x8x128 i (ix3 0 0 0) fun a => ?_).trans ?_
  · match a with
    | ⟨0, _⟩ => rfl
    | ⟨1, _⟩ => rfl
    | ⟨2, _⟩ => rfl
  · refine shapeCast_apply v _ _ _ ?_
    rw [Shape.rowMajor_val_two, Shape.rowMajor_val_three]
    rfl

end Cert.KernelIdeal.PayValue
end
-- ==== Proof.Blocks.lean ====
/-
  Each input window's block at a grid point, as a real matrix.

  Window 0's block at point t is rows 256 t .. 256 t + 255 of the first argument, all 8192 columns; window 1's is the
  same rows of the second argument; window 2's block is the whole augmented factor at every point.  An element of a
  block sits, along each axis, at block index times block size plus its coordinate in the block: the block index of
  windows 0 and 1 at point t is (t, 0), that of window 2 is (0, 0).
-/
import proofs.«104621_j30631706755178_2_alg».proof.Proof.FrameKit
import proofs.«104621_j30631706755178_2_alg».proof.Proof.Spec
import Idealize.ShloMosaic.Lib.Pipeline.Value
import Idealize.ShloMosaic.Lib.ValueIdx

noncomputable section

namespace Cert.KernelIdeal.Blk

open Cert.Spec Cert.KernelIdeal Cert.KernelIdeal.Gen Cert.KernelIdeal.Fr Idealize.ShloMosaic Idealize.ShloMosaic.ValueIdx
  Idealize.ShloMosaic.TcCoe Idealize.SL.Sem

variable (m : (ℓ : Loc nD τ sig) → Buf (Elt Ideal) ℓ) (c : Dev nD)

/-! ## The block indices over the grid, decided once -/

/-- Window 0's block index at point t is (t, 0): the grid is walked in order and its index map is 8 i + j. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Window 1's likewise. -/
theorem idx1 : ∀ t : Fin cfg0.N, win0_1.index t 0 = t.val ∧ win0_1.index t 1 = 0 :=
  (by decide +kernel : ∀ t : Fin grid0.N, win0_1.index t 0 = t.val ∧ win0_1.index t 1 = 0)
/-- Window 2's block index is (0, 0) at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-! ## The blocks -/

/-- Window 0's block at point t is tile t of the weights: entry (r, j) of the block is entry (256 t + r, j) of g. -/
theorem iblk0_real (g : Fin 4096 → Fin 8192 → ℝ) (hG : (V m c main_arg0 : S4096x8192.Idx → EReal) = lift2 g)
    (t : Fin cfg0.N) (h : t.val < 16) :
    (iblk m c 0 t : Vec Ideal S256x8192 .f32) = lift2 (gblk g ⟨t.val, h⟩) := by
  funext j
  unfold iblk
  rw [View.read_apply]
  show (V m c main_arg0 : S4096x8192.Idx → EReal) (((cfg0.win 0).blk t).view.emb j) = _
  rw [hG]
  unfold lift2 gblk rowOf
  refine congrArg (fun r : ℝ => (r : EReal)) ?_
  refine congr (congrArg g (Fin.ext ?_)) (Fin.ext ?_)
  · show win0_0.index t 0 * 256 + 1 * (j 0).val = 256 * t.val + (j 0).val
    rw [(idx0 t).1]; omega
  · show win0_0.index t 1 * 8192 + 1 * (j 1).val = (j 1).val
    rw [(idx0 t).2]; omega

/-- Window 1's block at point t is tile t of the row features: entry (r, d) of the block is entry (256 t + r, d) of x. -/
theorem iblk1_real (x : Fin 4096 → Fin 128 → ℝ) (hX : (V m c main_arg1 : S4096x128.Idx → EReal) = lift2 x)
    (t : Fin cfg0.N) (h : t.val < 16) :
    (iblk m c 1 t : Vec Ideal S256x128 .f32) = lift2 (xblk x ⟨t.val, h⟩) := by
  funext j
  unfold iblk
  rw [View.read_apply]
  show (V m c main_arg1 : S4096x128.Idx → EReal) (((cfg0.win 1).blk t).view.emb j) = _
  rw [hX]
  unfold lift2 xblk rowOf
  refine congrArg (fun r : ℝ => (r : EReal)) ?_
  refine congr (congrArg x (Fin.ext ?_)) (Fin.ext ?_)
  · show win0_1.index t 0 * 256 + 1 * (j 0).val = 256 * t.val + (j 0).val
    rw [(idx1 t).1]; omega
  · show win0_1.index t 1 * 128 + 1 * (j 1).val = (j 1).val
    rw [(idx1 t).2]; omega

/-- Window 2's block is the whole augmented factor at every point: entry (j, d) of the block is entry (j, d) of A. -/
theorem iblk2_real (A : Fin 8192 → Fin 256 → ℝ) (hA : (V m c main_v6 : S8192x256.Idx → EReal) = lift2 A)
    (t : Fin cfg0.N) :
    (iblk m c 2 t : Vec Ideal S8192x256 .bf16) = lift2 A := by
  funext j
  unfold iblk
  rw [View.read_apply]
  show (V m c main_v6 : S8192x256.Idx → EReal) (((cfg0.win 2).blk t).view.emb j) = _
  rw [hA]
  unfold lift2
  refine congrArg (fun r : ℝ => (r : EReal)) ?_
  refine congr (congrArg A (Fin.ext ?_)) (Fin.ext ?_)
  · show win0_2.index t 0 * 8192 + 1 * (j 0).val = (j 0).val
    rw [(idx2 t).1]; omega
  · show win0_2.index t 1 * 256 + 1 * (j 1).val = (j 1).val
    rw [(idx2 t).2]; omega

end Cert.KernelIdeal.Blk

end
-- ==== Proof.AccValue.lean ====
/-
  The running sum, as a real number.  When the first two arguments are real matrices g, x and the augmented factor the
  launch finds is the real matrix aug y, the scratch word after grid point n holds the real number `Cert.Spec.acc g x y n`:
  zero plus the contributions of the tiles since the last reset.  By induction on the point, through the three kinds of
  point; each step is the body's arithmetic on real blocks (the tile of g, the tile of x, the whole of aug y).
-/
import proofs.«104621_j30631706755178_2_alg».proof.Proof.Pieces
import proofs.«104621_j30631706755178_2_alg».proof.Proof.PayIdeal
import proofs.«104621_j30631706755178_2_alg».proof.Proof.Blocks

noncomputable section

namespace Cert.KernelIdeal.Val

open Cert.Spec Cert.KernelIdeal Cert.KernelIdeal.Gen Cert.KernelIdeal.Fr Cert.KernelIdeal.Blk Cert.KernelIdeal.PayValue
open Idealize.ShloMosaic Idealize.ShloMosaic.ValueIdx Idealize.ShloMosaic.TcCoe Idealize.SL.Sem

variable (m : (ℓ : Loc nD τ sig) → Buf (Elt Ideal) ℓ) (c : Dev nD)
variable (g : Fin 4096 → Fin 8192 → ℝ) (x : Fin 4096 → Fin 128 → ℝ) (y : Fin 8192 → Fin 128 → ℝ)
variable (hG : (V m c main_arg0 : S4096x8192.Idx → EReal) = lift2 g)
variable (hX : (V m c main_arg1 : S4096x128.Idx → EReal) = lift2 x)
variable (hA : (V m c main_v6 : S8192x256.Idx → EReal) = lift2 (aug y))

/-- The running sum does not depend on how its index is written. -/
theorem acc_congr {n n' : ℕ} (e : n = n') (h : n < 16) (h' : n' < 16) : acc g x y n h = acc g x y n' h' := by
  subst e; rfl

include hG hX hA in
/-- After point `n` the scratch word holds the real number `acc g x y n`. -/
theorem accAt_real : ∀ (n : ℕ) (h : n < cfg0.N) (h' : n < 16), accAt m c n h = fun _ => ((acc g x y n h' : ℝ) : EReal)
  | 0, h, h' => by
    rw [show accAt m c 0 h = accAt m c (⟨0, h⟩ : Fin cfg0.N).val (⟨0, h⟩ : Fin cfg0.N).isLt from rfl,
      accAt_A m c ⟨0, h⟩ rfl (by dsimp only; omega), soutA_eq, iblk0_real m c g hG ⟨0, h⟩ h', iblk1_real m c x hX ⟨0, h⟩ h',
      iblk2_real m c (aug y) hA ⟨0, h⟩, pay2_real, pay3_real]
    rfl
  | n + 1, h, h' => by
    have ih := accAt_real n (Nat.lt_of_succ_lt h) (Nat.lt_of_succ_lt h')
    rw [show accAt m c (n + 1) h = accAt m c (⟨n + 1, h⟩ : Fin cfg0.N).val (⟨n + 1, h⟩ : Fin cfg0.N).isLt from rfl]
    by_cases h0 : (n + 1) % 8 = 0
    · rw [accAt_A m c ⟨n + 1, h⟩ h0 (by dsimp only; omega), soutA_eq, iblk0_real m c g hG ⟨n + 1, h⟩ h',
        iblk1_real m c x hX ⟨n + 1, h⟩ h', iblk2_real m c (aug y) hA ⟨n + 1, h⟩, pay2_real, pay3_real]
      funext _; rw [acc, if_pos h0]
    · by_cases h1 : (n + 1) % 8 = 7
      · rw [accAt_C m c ⟨n + 1, h⟩ h0 h1, soutC_eq, iblk0_real m c g hG ⟨n + 1, h⟩ h',
          iblk1_real m c x hX ⟨n + 1, h⟩ h', iblk2_real m c (aug y) hA ⟨n + 1, h⟩]
        rw [show accAt m c ((⟨n + 1, h⟩ : Fin cfg0.N).val - 1) _ = accAt m c n (Nat.lt_of_succ_lt h) from rfl, ih, pay3_real]
        funext _; rw [acc, if_neg h0]
      · rw [accAt_B m c ⟨n + 1, h⟩ h0 h1, soutB_eq, iblk0_real m c g hG ⟨n + 1, h⟩ h',
          iblk1_real m c x hX ⟨n + 1, h⟩ h', iblk2_real m c (aug y) hA ⟨n + 1, h⟩]
        rw [show accAt m c ((⟨n + 1, h⟩ : Fin cfg0.N).val - 1) _ = accAt m c n (Nat.lt_of_succ_lt h) from rfl, ih, pay3_real]
        funext _; rw [acc, if_neg h0]

include hG hX hA in
/-- At the last tile of a half the result's staging buffer holds that half's total, in every entry. -/
theorem outAt_real (t : Fin cfg0.N) (h7 : t.val % 8 = 7) (h' : t.val < 16) :
    outAt m c t = fun _ => ((acc g x y t.val h' : ℝ) : EReal) := by
  have h0 : ¬t.val % 8 = 0 := by omega
  rw [outAt_C m c t h0 h7, outC_eq, ← soutC_eq c (grid0.coords t) (ms0 t) (hs0 t) (ms1 t) (hs1 t) (ms2 t) (hs2 t) (ms3 t) (hs3 t) scM (Memref.isWhole_whole _)
    (fun h => h0 ((hcond0 t).mp h)) ((hcond1 t).mpr h7), ← accAt_C m c t h0 h7,
    accAt_real m c g x y hG hX hA t.val t.isLt h']
  funext i
  rw [pay1_apply]

end Cert.KernelIdeal.Val

end
-- ==== Proof.HostPre.lean ====
/-
  The host operations before the launch, read over the reals.

  From the column features y (8192 x 128) the host builds the augmented right factor, 8192 x 256: columns 0 to 127 are
  y itself, column 128 holds |y_j|² = ∑_d y_jd² (the squares summed along each row from zero), column 129 is the
  constant one and columns 130 to 255 are zero; the change of format at the end is the identity on extended reals. Read
  at an index (j, d), the concatenation is the piece whose span of columns holds d, at column d less the columns
  before that piece: four cases, d < 128, d = 128, d = 129 and d ≥ 130.
-/
import proofs.«104621_j30631706755178_2_alg».proof.Proof.Gen.KernelIdeal
import proofs.«104621_j30631706755178_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.KernelIdeal.HostValue

open Cert.Spec Cert.KernelIdeal Cert.KernelIdeal.Gen Idealize.ShloMosaic Idealize.ShloMosaic.ValueIdx

/-- The ten host operations before the launch, composed: the third argument Y with the column of its squared row
    lengths, a column of ones and 126 columns of zeros appended, then the change of format. -/
def augTerm (Y : FVec Ideal S8192x128 .f32) : FVec Ideal S8192x256 .bf16 :=
  truncf .bf16 (concatenate S8192x256 1 [⟨S8192x128, Y⟩,
      ⟨S8192x1, broadcastInDim S8192x1 ![0] bcast_S8192_S8192x1_0 (Host.reduceAdd (F := Ideal) (mulf Y Y) (constant (F := Ideal) S_ .f32 0x00000000#32) reducesTo_S8192x128_S8192_d1 h_S_)⟩,
      ⟨S8192x1, broadcastInDim S8192x1 ![] bcast_S_S8192x1 (constant (F := Ideal) S_ .f32 0x3F800000#32)⟩,
      ⟨S8192x126, broadcastInDim S8192x126 ![] bcast_S_S8192x126 (constant (F := Ideal) S_ .f32 0x00000000#32)⟩]
    concatenates_S8192x128_S8192x1_S8192x1_S8192x126_S8192x256_d1) bitsLt_bf16_f32

/-- Column 128 as the host builds it: the row sums of the squares, as a column. -/
def sqCol (Y : FVec Ideal S8192x128 .f32) : FVec Ideal S8192x1 .f32 :=
  broadcastInDim S8192x1 ![0] bcast_S8192_S8192x1_0 (Host.reduceAdd (F := Ideal) (mulf Y Y) (constant (F := Ideal) S_ .f32 0x00000000#32) reducesTo_S8192x128_S8192_d1 h_S_)

/-- Column 129 as the host builds it: the constant one. -/
def oneCol : FVec Ideal S8192x1 .f32 :=
  broadcastInDim S8192x1 ![] bcast_S_S8192x1 (constant (F := Ideal) S_ .f32 0x3F800000#32)

/-- Columns 130 to 255 as the host builds them: the constant zero. -/
def zeroCols : FVec Ideal S8192x126 .f32 :=
  broadcastInDim S8192x126 ![] bcast_S_S8192x126 (constant (F := Ideal) S_ .f32 0x00000000#32)

/-- The host's sum over the 128 columns of the squares, at row `a`: the squared length of row `a`. -/
theorem sqCol_real (y : Fin 8192 → Fin 128 → ℝ) (a : Fin 8192) :
    Host.reduceAdd (F := Ideal) (mulf (lift2 y) (lift2 y)) (constant (F := Ideal) S_ .f32 0x00000000#32) reducesTo_S8192x128_S8192_d1 h_S_ (ix1 a)
      = ((sumSq y a : ℝ) : EReal) := by
  -- a sum along one axis is the initial value plus the sum over that axis's 128 coordinates
  have hR : S8192x128.Reduces [1] S8192 := by decide
  refine (Ideal.hostReduceAdd_single reducesTo_S8192x128_S8192_d1 hR _ _ _).trans ?_
  -- row `a` with the column `k` put back is the index (a, k)
  have hl : ∀ k : Fin 128, hR.lift (ix1 a) k = ix2 a k := fun k => by
    funext c
    match c with
    | ⟨0, _⟩ => exact Fin.ext rfl
    | ⟨1, _⟩ => exact Fin.ext rfl
  have hz : (constant (F := Ideal) S_ .f32 0x00000000#32) (Shape.Idx.first h_S_) = 0 := Ideal.ofBits_zero_f32
  rw [hz, zero_add]
  -- the initial value is zero, and a finite sum of products of reals is the real sum of the products
  unfold sumSq
  rw [coe_sum]
  refine Finset.sum_congr rfl fun k _ => ?_
  rw [hl k, EReal.coe_mul]
  rfl

/-- On a real matrix the host's augmented factor is the real augmented matrix: entry (j, d) is y_jd for d < 128,
    |y_j|² at d = 128, one at d = 129 and zero beyond. -/
theorem augTerm_real (y : Fin 8192 → Fin 128 → ℝ) : augTerm (lift2 y) = lift2 (aug y) := by
  funext j
  obtain ⟨a, d, rfl⟩ : ∃ (a : Fin 8192) (d : Fin 256), j = ix2 a d := ⟨j 0, j 1, eq_ix2 j⟩
  unfold augTerm
  rw [truncf_apply]
  -- off the concatenation's axis, a piece's index (a, c) and the whole's index (a, d) share the row coordinate
  have hi2 : ∀ {n : Nat} (c : Fin n) (hr : (⟨2, ![8192, n]⟩ : Shape).rank = S8192x256.rank) (b : Fin (⟨2, ![8192, n]⟩ : Shape).rank),
      b.cast hr ≠ (1 : Fin S8192x256.rank) → ((ix2 a c : (⟨2, ![8192, n]⟩ : Shape).Idx) b).val = ((ix2 a d : S8192x256.Idx) (b.cast hr)).val := by
    intro n c hr b hb
    match b with
    | ⟨0, _⟩ => rfl
    | ⟨1, _⟩ => exact absurd (Fin.ext rfl) hb
  by_cases h1 : d.val < 128
  · -- d < 128: the first piece, y itself, at column d
    refine Eq.trans (concatenate_apply_piece _ _ _ _ 0 ?_ S8192x128 (lift2 y) ?_ ?_ 0 ?_ (ix2 a ⟨d.val, h1⟩) ?_ ?_) ?_
    · exact (by decide : 0 < 4)
    · rfl
    · rfl
    · rfl
    · exact hi2 _ _
    · exact Nat.zero_add _
    show ((y a ⟨d.val, h1⟩ : ℝ) : EReal) = ((aug y a d : ℝ) : EReal)
    rw [aug, dif_pos h1]
  by_cases h2 : d.val = 128
  · -- d = 128: the second piece, after 128 columns, at its one column: the row sum of the squares
    refine Eq.trans (concatenate_apply_piece _ _ _ _ 1 ?_ S8192x1 (sqCol (lift2 y)) ?_ ?_ 128 ?_ (ix2 a (0 : Fin 1)) ?_ ?_) ?_
    · exact (by decide : 1 < 4)
    · rfl
    · rfl
    · rfl
    · exact hi2 _ _
    · show 128 + 0 = d.val
      omega
    refine (broadcastInDim_apply _ _ _ _ (ix1 a) ?_).trans ?_
    · intro a'
      match a' with
      | ⟨0, _⟩ => rfl
    rw [sqCol_real]
    show ((sumSq y a : ℝ) : EReal) = ((aug y a d : ℝ) : EReal)
    rw [aug, dif_neg h1, if_pos h2]
  by_cases h3 : d.val = 129
  · -- d = 129: the third piece, after 129 columns: the pattern 0x3F800000, which is one
    refine Eq.trans (concatenate_apply_piece _ _ _ _ 2 ?_ S8192x1 oneCol ?_ ?_ 129 ?_ (ix2 a (0 : Fin 1)) ?_ ?_) ?_
    · exact (by decide : 2 < 4)
    · rfl
    · rfl
    · rfl
    · exact hi2 _ _
    · show 129 + 0 = d.val
      omega
    refine (broadcastInDim_scalar_apply _ _ _).trans ?_
    show Ideal.ofBits .f32 0x3F800000#32 = ((aug y a d : ℝ) : EReal)
    rw [Ideal.ofBits_one_f32, aug, dif_neg h1, if_neg h2, if_pos h3, EReal.coe_one]
  · -- d ≥ 130: the fourth piece, after 130 columns, at column d - 130: zero
    have h4 : d.val - 130 < 126 := by have := d.isLt; omega
    refine Eq.trans (concatenate_apply_piece _ _ _ _ 3 ?_ S8192x126 zeroCols ?_ ?_ 130 ?_ (ix2 a ⟨d.val - 130, h4⟩) ?_ ?_) ?_
    · exact (by decide : 3 < 4)
    · rfl
    · rfl
    · rfl
    · exact hi2 _ _
    · show 130 + (d.val - 130) = d.val
      omega
    refine (broadcastInDim_scalar_apply _ _ _).trans ?_
    show Ideal.ofBits .f32 0x00000000#32 = ((aug y a d : ℝ) : EReal)
    rw [Ideal.ofBits_zero_f32, aug, dif_neg h1, if_neg h2, if_neg h3, EReal.coe_zero]

end Cert.KernelIdeal.HostValue

end
-- ==== Proof.HostTail.lean ====
/-
  The host operations after the launch, read over the reals.

  The launch leaves a 2 x 8 x 128 array in which each half's final running sum s p fills the 8 x 128 block p. The host
  adds up all 2·8·128 entries from zero, which is 1024·(s 0 + s 1), divides by 1024 and then by 2^25 = 4096·8192, the
  number of entries of the weight matrix: (s 0 + s 1) / 33554432.
-/
import proofs.«104621_j30631706755178_2_alg».proof.Proof.Gen.KernelIdeal
import proofs.«104621_j30631706755178_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.HostValue

open Cert.Spec Cert.KernelIdeal Cert.KernelIdeal.Gen Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The f32 pattern `0x44800000` (sign 0, exponent 137 = 127 + 10, significand 0) is 2^10 = 1024. -/
theorem ofBits_1024_f32 : Ideal.ofBits .f32 0x44800000#32 = ((1024 : ℝ) : EReal) := by
  simp [Ideal.ofBits, Ideal.ieee, -EReal.coe_mul]; norm_num

/-- The f32 pattern `0x4C000000` (sign 0, exponent 152 = 127 + 25, significand 0) is 2^25 = 33554432. -/
theorem ofBits_two_pow_25_f32 : Ideal.ofBits .f32 0x4C000000#32 = ((33554432 : ℝ) : EReal) := by
  simp [Ideal.ofBits, Ideal.ieee, -EReal.coe_mul]; norm_num

/-- The six host operations after the launch, composed: the sum of all 2·8·128 entries of the launch's result from zero,
    divided by 1024, divided by 2^25. -/
def tailTerm (o : FVec Ideal S2x8x128 .f32) : FVec Ideal S_ .f32 :=
  Host.divf (F := Ideal) (Host.divf (F := Ideal) (Host.reduceAdd (F := Ideal) o (constant (F := Ideal) S_ .f32 0x00000000#32) reducesTo_S2x8x128_S_d0_1_2 h_S_) (constant (F := Ideal) S_ .f32 0x44800000#32)) (constant (F := Ideal) S_ .f32 0x4C000000#32)

/-- On a result whose block `p` is filled with the real `s p`, the host's tail is `(s 0 + s 1) / 2^25`: each `s p` is
    counted 8·128 = 1024 times by the sum, the first division takes the 1024 out, the second divides by 2^25. Both
    divisors are nonzero reals, so each division is the real one. -/
theorem tailTerm_real (s : Fin 2 → ℝ) : tailTerm (fun i => ((s (i 0) : ℝ) : EReal)) = fun _ => ((((s 0 + s 1) / 33554432 : ℝ)) : EReal) := by
  funext j
  -- the three operations at the one index of the scalar shape: two divisions of extended reals around the host's sum
  show Ideal.div (Ideal.div (Ideal.hostReduceAdd reducesTo_S2x8x128_S_d0_1_2 (fun i => ((s (i 0) : ℝ) : EReal)) (Ideal.ofBits .f32 0x00000000#32) j) (Ideal.ofBits .f32 0x44800000#32)) (Ideal.ofBits .f32 0x4C000000#32) = _
  -- a reduction over every axis is the initial value, zero, plus the sum over every index
  rw [Ideal.hostReduceAdd_total _ (fun b => b.elim0), Ideal.ofBits_zero_f32, zero_add, ofBits_1024_f32, ofBits_two_pow_25_f32]
  -- ∑_{p, a, b} s p = 8·128·(s 0 + s 1), a sum of reals
  have hsum : (∑ i : S2x8x128.Idx, ((s (i 0) : ℝ) : EReal)) = ((1024 * (s 0 + s 1) : ℝ) : EReal) := by
    rw [← coe_sum]
    refine congrArg (fun r : ℝ => (r : EReal)) ?_
    rw [sum_idx3]
    have hc : ∀ (a : Fin 2) (b : Fin 8) (c : Fin 128), s ((ix3 a b c : S2x8x128.Idx) 0) = s a := fun _ _ _ => rfl
    simp only [hc, Finset.sum_const, Finset.card_univ, Fintype.card_fin, Fin.sum_univ_two, nsmul_eq_mul]
    push_cast
    ring
  -- a division by a nonzero real is the product with its reciprocal; what is left is an identity of reals
  rw [hsum, Ideal.div_coe (y := 1024) (by norm_num), ← EReal.coe_mul, Ideal.div_coe (y := 33554432) (by norm_num), ← EReal.coe_mul]
  refine congrArg (fun r : ℝ => (r : EReal)) ?_
  ring

end Cert.KernelIdeal.HostValue

end
-- ==== Proof.Result.lean ====
/-
  The host operations around the launch and the launch's result array, read off the frame run.

  Before the launch, ten host operations leave in the buffer the launch reads as its third operand their composition
  of the third argument: the augmented right factor. After it, six host operations take the launch's result array, a
  2 x 8 x 128 array, to the scalar result: its sum divided by 1024 and by 2^25. The result array itself is written back
  in two blocks, block p at the last point of half p (point 8 p + 7), where the staging buffer holds the half's running
  sum in every entry; the two blocks cover the array.
-/
import proofs.«104621_j30631706755178_2_alg».proof.Proof.Frame
import proofs.«104621_j30631706755178_2_alg».proof.Proof.HostPre
import proofs.«104621_j30631706755178_2_alg».proof.Proof.HostTail
import Idealize.ShloMosaic.Lib.Pipeline.Value
import Idealize.ShloMosaic.Lib.StableHlo.Run

set_option maxRecDepth 16384

noncomputable section

namespace Cert.KernelIdeal.Res

open Cert.Spec Cert.KernelIdeal Cert.KernelIdeal.Gen Cert.KernelIdeal.Fr Cert.KernelIdeal.HostValue
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The ten host operations before the launch leave the launch's third operand at their composition of the third
    argument: each operation's result buffer holds its function of its operands' buffers, and no later one of the ten
    overwrites it. -/
theorem V_main_v6 : (V m c main_v6 : S8192x256.Idx → EReal) = augTerm (m ((c : Thread nD τ).loc main_arg2)) := by
  dsimp only [V, V0]
  simp only [hostOps0, List.flatten_cons, List.flatten_nil, List.append_nil]
  open Idealize.ShloMosaic.StableHlo in after_results
  rfl

/-- The six host operations after the launch, applied to the memory the launch leaves, give their composition of the
    launch's result array: the result array is the one buffer of theirs that the launch wrote. -/
theorem tail_eq : Pipeline.afterTail₀ cfgs (dats m) 0 (V0 m) [hostOps1] c main_v10 = tailTerm ((dats m 0 c).arrAt 3 cfg0.N) := by
  unfold Pipeline.afterTail₀
  show StableHlo.after hostOps1 _ (Proc.devRef .tc main_v10) = _
  open Idealize.ShloMosaic.StableHlo in after_results
  exact congrArg tailTerm (Pipeline.withArrays_arr spec0 launch0.win.arr_inj c _ _ 3)

/-! ## The result array -/

/-- The result array when half `p`'s final running sum is the real `s p`: block `p` filled with `s p`. -/
def resArr (s : Fin 2 → ℝ) : S2x8x128.Idx → EReal := fun i => ((s (i 0) : ℝ) : EReal)

/-- The result's block index at point `t` is (t / 8, 0, 0): the half the point belongs to. -/
theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- Its blocks are whole, 1 x 8 x 128, at every point: none overhangs the array. -/
theorem xsize3 : ∀ t : Fin cfg0.N, win0_3.xsize (grid0.coords t) 0 = 1 ∧ win0_3.xsize (grid0.coords t) 1 = 8 ∧ win0_3.xsize (grid0.coords t) 2 = 128 :=
  (by decide +kernel : ∀ t : Fin grid0.N, win0_3.xsize (grid0.coords t) 0 = 1 ∧ win0_3.xsize (grid0.coords t) 1 = 8 ∧ win0_3.xsize (grid0.coords t) 2 = 128)

/-- What a storing point writes back is its block of the result array: the staging buffer holds the half's sum `s (t / 8)`
    in every entry, and every entry of block t / 8 of the array is that same number (an entry of the block sits in the
    array at block index × block size + its coordinate in the block, which on the first axis is t / 8 · 1 + 0). -/
theorem flushed3 (s : Fin 2 → ℝ) (hout : ∀ t : Fin cfg0.N, t.val % 8 = 7 → ∀ h : t.val / 8 < 2, outAt m c t = fun _ => ((s ⟨t.val / 8, h⟩ : ℝ) : EReal))
    (t : Fin cfg0.N) (hf : (cfg0.win 3).flush t = true) :
    (dats m 0 c).flushed 3 t = ((cfg0.win 3).blk t).view.read (Elt Ideal) (resArr s) := by
  have h7 : t.val % 8 = 7 := (flush0_3 t).mp hf
  have hN : t.val < 16 := lt_of_lt_of_eq t.isLt N_0
  have hp : t.val / 8 < 2 := by omega
  show (cfg0.win 3).cut (grid0.coords t) ((dats m 0 c).after 3 t) = _
  rw [after3, hout t h7 hp]
  funext y
  rw [View.read_apply]
  show ((s ⟨t.val / 8, hp⟩ : ℝ) : EReal) = resArr s (((cfg0.win 3).blk t).view.emb y)
  unfold resArr
  refine congrArg (fun r : ℝ => (r : EReal)) (congrArg s (Fin.ext ?_))
  show t.val / 8 = win0_3.index t 0 * 1 + 1 * (y 0).val
  have hy : (y 0).val < win0_3.xsize (grid0.coords t) 0 := (y 0).isLt
  rw [(xsize3 t).1] at hy
  rw [(idx3 t).1]
  omega

/-- So the launch leaves the result array with block `p` filled with `s p`: the storing points are 7 and 15, point
    8 p + 7 writes block p, and an index (p, a, b) lies in the block of point 8 p + 7, so the two blocks cover the array. -/
theorem final3 (s : Fin 2 → ℝ) (hout : ∀ t : Fin cfg0.N, t.val % 8 = 7 → ∀ h : t.val / 8 < 2, outAt m c t = fun _ => ((s ⟨t.val / 8, h⟩ : ℝ) : EReal)) :
    ((dats m 0 c).arrAt 3 cfg0.N : S2x8x128.Idx → EReal) = fun i => ((s (i 0) : ℝ) : EReal) :=
  (dats m 0 c).arrAt_eq_of_cover 3 (resArr s) (flushed3 m c s hout) fun i => by
    have h0 : (i 0 : Nat) < 2 := (i 0).isLt
    have h1 : (i 1 : Nat) < 8 := (i 1).isLt
    have h2 : (i 2 : Nat) < 128 := (i 2).isLt
    have hN : cfg0.N = 16 := N_0
    have ht : 8 * (i 0).val + 7 < cfg0.N := by omega
    refine ⟨⟨8 * (i 0).val + 7, ht⟩, (flush0_3 _).mpr (by show (8 * (i 0).val + 7) % 8 = 7; omega), ?_⟩
    show i ∈ ((View.whole main_v7).slice (win0_3.rect ⟨8 * (i 0).val + 7, ht⟩)).set
    rw [View.set_slice_whole, Rect.mem_set_unit]
    intro a
    match a with
    | ⟨0, _⟩ =>
      show win0_3.index ⟨8 * (i 0).val + 7, ht⟩ 0 * win0_3.size 0 ≤ (i 0 : Nat) ∧ (i 0 : Nat) < win0_3.index ⟨8 * (i 0).val + 7, ht⟩ 0 * win0_3.size 0 + win0_3.xsize (grid0.coords ⟨8 * (i 0).val + 7, ht⟩) 0
      rw [(idx3 ⟨8 * (i 0).val + 7, ht⟩).1, (xsize3 ⟨8 * (i 0).val + 7, ht⟩).1, show win0_3.size 0 = 1 from rfl]
      show (8 * (i 0).val + 7) / 8 * 1 ≤ (i 0 : Nat) ∧ (i 0 : Nat) < (8 * (i 0).val + 7) / 8 * 1 + 1
      omega
    | ⟨1, _⟩ =>
      show win0_3.index ⟨8 * (i 0).val + 7, ht⟩ 1 * win0_3.size 1 ≤ (i 1 : Nat) ∧ (i 1 : Nat) < win0_3.index ⟨8 * (i 0).val + 7, ht⟩ 1 * win0_3.size 1 + win0_3.xsize (grid0.coords ⟨8 * (i 0).val + 7, ht⟩) 1
      rw [(idx3 ⟨8 * (i 0).val + 7, ht⟩).2.1, (xsize3 ⟨8 * (i 0).val + 7, ht⟩).2.1]
      omega
    | ⟨2, _⟩ =>
      show win0_3.index ⟨8 * (i 0).val + 7, ht⟩ 2 * win0_3.size 2 ≤ (i 2 : Nat) ∧ (i 2 : Nat) < win0_3.index ⟨8 * (i 0).val + 7, ht⟩ 2 * win0_3.size 2 + win0_3.xsize (grid0.coords ⟨8 * (i 0).val + 7, ht⟩) 2
      rw [(idx3 ⟨8 * (i 0).val + 7, ht⟩).2.2, (xsize3 ⟨8 * (i 0).val + 7, ht⟩).2.2]
      omega

end Cert.KernelIdeal.Res

end
-- ==== Proof.TileSum.lean ====
/-
  The two halves' running sums add up to the loss, over the reals.

  The running sum is reset at tiles 0 and 8, so after tile 7 it is the sum of the tiles 0 to 7 and after tile 15 the
  sum of the tiles 8 to 15: together, every tile once. A tile's contribution is the sum over its 256 rows of what one
  row contributes, and (t, r) ↦ 256 t + r runs through all 4096 rows once, so the total is the sum over all rows. Summed
  over all rows the three parts are the loss's three traces; only the middle one needs a step, the exchange
  ∑_i ∑_j g_ij |y_j|² = ∑_j (∑_i g_ij) |y_j|².
-/
import proofs.«104621_j30631706755178_2_alg».proof.Proof.Spec

noncomputable section

open scoped BigOperators

namespace Cert.Spec

/-- The rows of the 16 tiles are all 4096 rows, each once: (t, r) ↦ 256 t + r is a bijection, with inverse
    i ↦ (i / 256, i % 256). -/
def rowEquiv : Fin 16 × Fin 256 ≃ Fin 4096 where
  toFun p := rowOf p.1 p.2
  invFun i := (⟨i.val / 256, by have := i.isLt; omega⟩, ⟨i.val % 256, Nat.mod_lt _ (by norm_num)⟩)
  left_inv p := by
    rcases p with ⟨t, r⟩
    have := r.isLt
    refine Prod.ext (Fin.ext ?_) (Fin.ext ?_)
    · show (256 * t.val + r.val) / 256 = t.val
      omega
    · show (256 * t.val + r.val) % 256 = r.val
      omega
  right_inv i := Fin.ext (by show 256 * (i.val / 256) + i.val % 256 = i.val; omega)

/-- So a sum over the tiles of a sum over each tile's rows is the sum over all rows. -/
theorem sum_rows (f : Fin 4096 → ℝ) : ∑ t : Fin 16, ∑ r : Fin 256, f (rowOf t r) = ∑ i, f i :=
  (Fintype.sum_prod_type' fun t r => f (rowOf t r)).symm.trans (Equiv.sum_comp rowEquiv f)

/-- A sum over 16 indices written out, the two halves apart. -/
theorem sum_sixteen (T : Fin 16 → ℝ) :
    ∑ t, T t = (T 0 + T 1 + T 2 + T 3 + T 4 + T 5 + T 6 + T 7) + (T 8 + T 9 + T 10 + T 11 + T 12 + T 13 + T 14 + T 15) := by
  refine (Fin.sum_univ_add (a := 8) (b := 8) T).trans ?_
  rw [Fin.sum_univ_eight, Fin.sum_univ_eight]
  rfl

variable (g : Fin 4096 → Fin 8192 → ℝ) (x : Fin 4096 → Fin 128 → ℝ) (y : Fin 8192 → Fin 128 → ℝ)

/-- The contribution of tile `t`. -/
def tileOf (t : Fin 16) : ℝ := tile (gblk g t) (xblk x t) y

/-- The running sum after the last tile of the first half is the sum of the tiles 0 to 7 … -/
theorem acc_seven : acc g x y 7 (by norm_num) = tileOf g x y 0 + tileOf g x y 1 + tileOf g x y 2 + tileOf g x y 3
    + tileOf g x y 4 + tileOf g x y 5 + tileOf g x y 6 + tileOf g x y 7 := by
  simp only [acc]
  norm_num
  rfl

/-- … and after the last tile of the second half, where it was reset at tile 8, the sum of the tiles 8 to 15. -/
theorem acc_fifteen : acc g x y 15 (by norm_num) = tileOf g x y 8 + tileOf g x y 9 + tileOf g x y 10 + tileOf g x y 11
    + tileOf g x y 12 + tileOf g x y 13 + tileOf g x y 14 + tileOf g x y 15 := by
  simp only [acc]
  norm_num
  rfl

/-- What one row `i` contributes: its degree times its squared length, its weights against the squared lengths of the
    columns' features, less twice its features against its weighted sum of the columns' features. -/
def rowTerm (i : Fin 4096) : ℝ :=
  (∑ j : Fin 8192, g i j) * sumSq x i + (∑ j : Fin 8192, g i j * sumSq y j)
    - 2 * (∑ d : Fin 128, x i d * (∑ j : Fin 8192, g i j * y j d))

/-- A tile's contribution is the sum of its rows' contributions. -/
theorem tileOf_rows (t : Fin 16) : tileOf g x y t = ∑ r : Fin 256, rowTerm g x y (rowOf t r) := by
  unfold tileOf tile rowTerm
  rw [Finset.sum_sub_distrib, Finset.sum_add_distrib, ← Finset.mul_sum]
  rfl

/-- The rows' contributions sum to the three traces of the loss: in the middle one the sum over rows moves inside,
    ∑_i ∑_j g_ij |y_j|² = ∑_j (∑_i g_ij) |y_j|². -/
theorem sum_rowTerm : ∑ i, rowTerm g x y i
    = (∑ i : Fin 4096, (∑ j : Fin 8192, g i j) * sumSq x i) + (∑ j : Fin 8192, (∑ i : Fin 4096, g i j) * sumSq y j)
      - 2 * (∑ i : Fin 4096, ∑ d : Fin 128, x i d * (∑ j : Fin 8192, g i j * y j d)) := by
  have hB : ∑ i : Fin 4096, ∑ j : Fin 8192, g i j * sumSq y j = ∑ j : Fin 8192, (∑ i : Fin 4096, g i j) * sumSq y j := by
    rw [Finset.sum_comm]
    exact Finset.sum_congr rfl fun j _ => (Finset.sum_mul _ _ _).symm
  unfold rowTerm
  rw [Finset.sum_sub_distrib, Finset.sum_add_distrib, ← Finset.mul_sum, hB]

/-- The two halves' final running sums add up to the loss's numerator. -/
theorem acc_total (g : Fin 4096 → Fin 8192 → ℝ) (x : Fin 4096 → Fin 128 → ℝ) (y : Fin 8192 → Fin 128 → ℝ) :
    (acc g x y 7 (by norm_num) + acc g x y 15 (by norm_num)) / 33554432 = loss g x y := by
  rw [acc_seven, acc_fifteen, ← sum_sixteen (tileOf g x y)]
  unfold loss
  congr 1
  rw [← sum_rowTerm, ← sum_rows (rowTerm g x y)]
  exact Finset.sum_congr rfl fun t _ => tileOf_rows g x y t

end Cert.Spec

end
-- ==== Proof.KernelRun.lean ====
/-
  The idealized kernel's run, read at real inputs: the result is the loss.

  The frame run leaves the launch's result array at what the write-backs put there — block p at the total of half p — and
  every other buffer at what the host operations after the launch make of it: the sum of all entries of the result array,
  divided by 1024 and by 2^25.  The two halves' totals are the running sums after points 7 and 15; over the reals their sum
  divided by 2^25 is the loss.
-/
import proofs.«104621_j30631706755178_2_alg».proof.Proof.AccValue
import proofs.«104621_j30631706755178_2_alg».proof.Proof.Result
import proofs.«104621_j30631706755178_2_alg».proof.Proof.TileSum

noncomputable section

namespace Cert.KernelIdeal.Val

open Cert.Spec Cert.KernelIdeal Cert.KernelIdeal.Gen Cert.KernelIdeal.Fr Cert.KernelIdeal.Res Cert.KernelIdeal.HostValue
open Idealize.ShloMosaic Idealize.ShloMosaic.ValueIdx Idealize.ShloMosaic.TcCoe Idealize.SL.Sem

variable (m : (ℓ : Loc nD τ sig) → Buf (Elt Ideal) ℓ) (ρ : Dev nD → PrngReg)

/-- The total of half `p` of the grid: the running sum after its last tile, point 8 p + 7. -/
def halfTotal (g : Fin 4096 → Fin 8192 → ℝ) (x : Fin 4096 → Fin 128 → ℝ) (y : Fin 8192 → Fin 128 → ℝ) (p : Fin 2) : ℝ :=
  acc g x y (8 * p.val + 7) (by have := p.isLt; omega)

/-- The two halves' totals, divided by the number of entries of the weights, give the loss. -/
theorem halves_total (g : Fin 4096 → Fin 8192 → ℝ) (x : Fin 4096 → Fin 128 → ℝ) (y : Fin 8192 → Fin 128 → ℝ) :
    (halfTotal g x y 0 + halfTotal g x y 1) / 33554432 = loss g x y := by
  rw [← acc_total g x y]
  exact congrArg₂ (fun a b : ℝ => (a + b) / 33554432) (acc_congr g x y (by decide) _ _) (acc_congr g x y (by decide) _ _)

/-- Every weakly fair execution of the idealized kernel's @main from real inputs g, x, y terminates with the loss of
    g, x, y in the result buffer and the three arguments unchanged. -/
theorem run_value (g : Dev nD → Fin 4096 → Fin 8192 → ℝ) (x : Dev nD → Fin 4096 → Fin 128 → ℝ) (y : Dev nD → Fin 8192 → Fin 128 → ℝ)
    (hg : ∀ c : Dev nD, m ((c.tc : Thread nD τ).loc main_arg0) = lift2 (g c))
    (hx : ∀ c : Dev nD, m ((c.tc : Thread nD τ).loc main_arg1) = lift2 (x c))
    (hy : ∀ c : Dev nD, m ((c.tc : Thread nD τ).loc main_arg2) = lift2 (y c)) :
    θ_run defs (onTc (τ := τ) (main (F := Ideal))) ⟨m, fun _ => 0, ρ⟩ (fun r => ∀ c : Dev nD,
      r.2.mem ((c.tc : Thread nD τ).loc main_v10) = (fun _ => ((loss (g c) (x c) (y c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main (F := Ideal) m ρ)
  · have hG : (V m c main_arg0 : S4096x8192.Idx → EReal) = lift2 (g c) := (V_main_arg0 m c).trans (hg c)
    have hX : (V m c main_arg1 : S4096x128.Idx → EReal) = lift2 (x c) := (V_main_arg1 m c).trans (hx c)
    have hA : (V m c main_v6 : S8192x256.Idx → EReal) = lift2 (aug (y c)) :=
      (V_main_v6 m c).trans ((congrArg augTerm (hy c)).trans (augTerm_real (y c)))
    have hfin := final3 m c (halfTotal (g c) (x c) (y c))
      (fun t h7 hlt => (outAt_real m c (g c) (x c) (y c) hG hX hA t h7 (lt_of_lt_of_eq t.isLt N_0)).trans
        (by funext _; exact congrArg (fun r : ℝ => (r : EReal)) (acc_congr (g c) (x c) (y c) (by dsimp only; omega) _ _)))
    refine ((h c).2 main_v10 (Pipeline.mem_restRefs_of main_v10 (by decide) (by decide))).trans
      ((tail_eq m c).trans ((congrArg tailTerm hfin).trans ((tailTerm_real (halfTotal (g c) (x c) (y c))).trans ?_)))
    funext _
    exact congrArg (fun r : ℝ => (r : EReal)) (halves_total (g c) (x c) (y c))
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).2 main_arg2 (Pipeline.mem_restRefs_of main_arg2 (by decide) (by decide))).trans (V_main_arg2 m c)

end Cert.KernelIdeal.Val

end
-- ==== Proof.RefValue.lean ====
/-
  The reference, read on real inputs.  Every stage of the reference is a real number when the three inputs are real
  matrices: the row degrees of g (sums along a row), the column degrees (sums along a column), the squared row lengths
  of x and of y, the two weighted traces, the cross term (the sum over every entry of x times the product g y), and
  last (term0 + term1 - 2 cross) / 2^25.  Each host sum starts from the zero word, so it reads 0 + the sum.
-/
import proofs.«104621_j30631706755178_2_alg».proof.Proof.Gen.ReferenceIdeal.Read
import proofs.«104621_j30631706755178_2_alg».proof.Proof.Spec
import Idealize.ShloMosaic.Lib.ValueIdx
import Idealize.ShloMosaic.PureOps.Ideal.Laws

noncomputable section

open scoped BigOperators

namespace Cert.RefBridge

open Cert.Spec Cert.ReferenceIdeal Cert.ReferenceIdeal.Gen Cert.ReferenceIdeal.Read Idealize.ShloMosaic Idealize.ShloMosaic.ValueIdx

/-! ## The two literals other than zero -/

/-- The word 0x40000000 (sign 0, exponent 128, fraction 0) is the real 2. -/
theorem ofBits_two : Ideal.ofBits .f32 0x40000000#32 = ((2 : ℝ) : EReal) := by
  simp [Ideal.ofBits, Ideal.ieee, -EReal.coe_mul]; norm_num

/-- The word 0x4C000000 (sign 0, exponent 152, fraction 0) is 2^25 = 33554432 = 4096 * 8192. -/
theorem ofBits_two_pow_25 : Ideal.ofBits .f32 0x4C000000#32 = ((33554432 : ℝ) : EReal) := by
  simp [Ideal.ofBits, Ideal.ieee, -EReal.coe_mul]; norm_num

/-! ## A sum over a rank-1 index set is the sum over its coordinate -/

theorem sum_idx1 {M : Type*} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ _ _ (fun i => congrArg f (eq_ix1 i))

/-! ## The stages, one at a time, on real inputs -/

/-- Row degrees: entry a of the sum of g along axis 1 is sum_j g a j. -/
theorem v0_real (g : Fin 4096 → Fin 8192 → ℝ) (a : Fin 4096) :
    val_main_v0 (F := Ideal) (lift2 g) (ix1 a) = ((∑ j : Fin 8192, g a j : ℝ) : EReal) := by
  rw [val_main_v0_apply]
  show Ideal.ofBits .f32 0x00000000#32 + _ = _
  rw [Ideal.ofBits_zero_f32, zero_add, coe_sum]
  rfl

/-- Column degrees: entry b of the sum of g along axis 0 is sum_i g i b. -/
theorem v1_real (g : Fin 4096 → Fin 8192 → ℝ) (b : Fin 8192) :
    val_main_v1 (F := Ideal) (lift2 g) (ix1 b) = ((∑ i : Fin 4096, g i b : ℝ) : EReal) := by
  rw [val_main_v1_apply]
  show Ideal.ofBits .f32 0x00000000#32 + _ = _
  rw [Ideal.ofBits_zero_f32, zero_add, coe_sum]
  rfl

/-- Squared row lengths of x. -/
theorem v3_real (x : Fin 4096 → Fin 128 → ℝ) (a : Fin 4096) :
    val_main_v3 (F := Ideal) (lift2 x) (ix1 a) = ((sumSq x a : ℝ) : EReal) := by
  rw [val_main_v3_apply]
  show Ideal.ofBits .f32 0x00000000#32 + _ = _
  rw [Ideal.ofBits_zero_f32, zero_add]
  unfold sumSq
  rw [coe_sum]
  refine Finset.sum_congr rfl fun k _ => ?_
  rw [EReal.coe_mul]
  rfl

/-- Squared row lengths of y. -/
theorem v7_real (y : Fin 8192 → Fin 128 → ℝ) (b : Fin 8192) :
    val_main_v7 (F := Ideal) (lift2 y) (ix1 b) = ((sumSq y b : ℝ) : EReal) := by
  rw [val_main_v7_apply]
  show Ideal.ofBits .f32 0x00000000#32 + _ = _
  rw [Ideal.ofBits_zero_f32, zero_add]
  unfold sumSq
  rw [coe_sum]
  refine Finset.sum_congr rfl fun k _ => ?_
  rw [EReal.coe_mul]
  rfl

/-- term0 = sum_a rowdeg_a |x_a|^2. -/
theorem v5_real (g : Fin 4096 → Fin 8192 → ℝ) (x : Fin 4096 → Fin 128 → ℝ) (i : S_.Idx) :
    val_main_v5 (F := Ideal) (lift2 g) (lift2 x) i
      = ((∑ a : Fin 4096, (∑ j : Fin 8192, g a j) * sumSq x a : ℝ) : EReal) := by
  rw [val_main_v5_apply]
  show Ideal.ofBits .f32 0x00000000#32 + _ = _
  rw [Ideal.ofBits_zero_f32, zero_add, sum_idx1, coe_sum]
  refine Finset.sum_congr rfl fun a _ => ?_
  rw [val_main_v4_apply, v0_real, v3_real, EReal.coe_mul]
  rfl

/-- term1 = sum_b coldeg_b |y_b|^2. -/
theorem v9_real (g : Fin 4096 → Fin 8192 → ℝ) (y : Fin 8192 → Fin 128 → ℝ) (i : S_.Idx) :
    val_main_v9 (F := Ideal) (lift2 g) (lift2 y) i
      = ((∑ b : Fin 8192, (∑ a : Fin 4096, g a b) * sumSq y b : ℝ) : EReal) := by
  rw [val_main_v9_apply]
  show Ideal.ofBits .f32 0x00000000#32 + _ = _
  rw [Ideal.ofBits_zero_f32, zero_add, sum_idx1, coe_sum]
  refine Finset.sum_congr rfl fun b _ => ?_
  rw [val_main_v8_apply, v1_real, v7_real, EReal.coe_mul]
  rfl

/-- The product g y: entry (a, d) is sum_j g a j * y j d. -/
theorem v10_real (g : Fin 4096 → Fin 8192 → ℝ) (y : Fin 8192 → Fin 128 → ℝ) (a : Fin 4096) (d : Fin 128) :
    val_main_v10 (F := Ideal) (lift2 g) (lift2 y) (ix2 a d) = ((∑ j : Fin 8192, g a j * y j d : ℝ) : EReal) := by
  rw [val_main_v10_apply, coe_sum]
  refine Finset.sum_congr rfl fun k _ => ?_
  rw [EReal.coe_mul]
  rfl

/-- cross = the sum over every entry (a, d) of x a d * (g y) a d. -/
theorem v12_real (g : Fin 4096 → Fin 8192 → ℝ) (x : Fin 4096 → Fin 128 → ℝ) (y : Fin 8192 → Fin 128 → ℝ) (i : S_.Idx) :
    val_main_v12 (F := Ideal) (lift2 g) (lift2 x) (lift2 y) i
      = ((∑ a : Fin 4096, ∑ d : Fin 128, x a d * (∑ j : Fin 8192, g a j * y j d) : ℝ) : EReal) := by
  rw [val_main_v12_apply]
  show Ideal.ofBits .f32 0x00000000#32 + _ = _
  rw [Ideal.ofBits_zero_f32, zero_add, sum_idx2, coe_sum]
  refine Finset.sum_congr rfl fun a _ => ?_
  rw [coe_sum]
  refine Finset.sum_congr rfl fun d _ => ?_
  rw [val_main_v11_apply, v10_real, EReal.coe_mul]
  rfl

/-! ## The result -/

/-- On real inputs the reference's result is the loss: (term0 + term1 - 2 cross) / 2^25, a real. -/
theorem ref_value (g : Fin 4096 → Fin 8192 → ℝ) (x : Fin 4096 → Fin 128 → ℝ) (y : Fin 8192 → Fin 128 → ℝ) :
    val_main_v16 (F := Ideal) (lift2 g) (lift2 x) (lift2 y) = fun _ => ((loss g x y : ℝ) : EReal) := by
  funext i
  rw [val_main_v16_apply, val_main_v15_apply, val_main_v14_apply, val_main_v13_apply, v5_real, v9_real, v12_real]
  show Ideal.div (_ + _ - Ideal.ofBits .f32 0x40000000#32 * _) (Ideal.ofBits .f32 0x4C000000#32) = _
  rw [ofBits_two, ofBits_two_pow_25, Ideal.div_coe (by norm_num : (33554432 : ℝ) ≠ 0),
    ← EReal.coe_add, ← EReal.coe_mul, ← EReal.coe_sub, ← EReal.coe_mul]
  unfold loss
  rw [mul_one_div]

end Cert.RefBridge

end
-- ==== Proof.Finite.lean ====
/-
  The precondition "every input is finite" read back: an array of extended reals all of whose entries have absolute
  value below plus infinity is an array of reals, so the three inputs are real matrices.
-/
import proofs.«104621_j30631706755178_2_alg».proof.Proof.Gen.Pre_finite_inputs
import proofs.«104621_j30631706755178_2_alg».proof.Pre_finite_inputs
import proofs.«104621_j30631706755178_2_alg».proof.Proof.Spec
import Idealize.ShloMosaic.Lib.ReduceAll
import Idealize.ShloMosaic.Lib.ValueIdx

noncomputable section

namespace Cert.Finite

open Cert.Spec Idealize.ShloMosaic Idealize.ShloMosaic.ValueIdx

/-- The scalar shape has one index. -/
instance : Subsingleton Cert.Pre_finite_inputs.S_.Idx := ⟨fun a b => funext fun d => d.elim0⟩

/-- The word 0x7F800000 is plus infinity. -/
theorem ofBits_inf : Ideal.ofBits .f32 0x7F800000#32 = (⊤ : EReal) := by simp [Ideal.ofBits, Ideal.ieee]

/-- An extended real with |x| = max x (-x) strictly below plus infinity is neither infinity: it is a real. -/
theorem real_of_abs_lt (x : EReal) (h : Ideal.cmp .olt (max x (-x)) (Ideal.ofBits .f32 0x7F800000#32) = 1#1) :
    x = ((x.toReal : ℝ) : EReal) := by
  rw [ofBits_inf] at h
  have hlt : max x (-x) < ⊤ := by
    unfold Ideal.cmp at h
    by_contra hn
    simp [hn] at h
  rw [max_lt_iff] at hlt
  induction x using EReal.rec with
  | bot => exact absurd hlt.2 (by simp)
  | coe r => rfl
  | top => exact absurd hlt.1 (by simp)

/-- One array: if every entry has absolute value below plus infinity (the and over all entries of the comparison is
    1) then the array is the lift of the real matrix of its entries. -/
theorem lift_of_all {n0 n1 : ℕ} (hb : Cert.Pre_finite_inputs.S_.BroadcastsInDim ⟨2, ![n0, n1]⟩ ![])
    (hr : (⟨2, ![n0, n1]⟩ : Shape).ReducesTo [0, 1] Cert.Pre_finite_inputs.S_) (hu : 0 < Cert.Pre_finite_inputs.S_.numel)
    (a : FVec Ideal ⟨2, ![n0, n1]⟩ .f32)
    (h : Host.reduce IntOp.andi
        (cmpf .olt (Host.absf a) (broadcastInDim ⟨2, ![n0, n1]⟩ ![] hb (constant (F := Ideal) Cert.Pre_finite_inputs.S_ .f32 0x7F800000#32)))
        (constantI Cert.Pre_finite_inputs.S_ 1 1#1) hr hu ix0 = 1#1) :
    a = lift2 (fun i j => (a (ix2 i j)).toReal) := by
  funext i
  obtain ⟨p, q, rfl⟩ : ∃ (p : Fin n0) (q : Fin n1), i = ix2 p q := ⟨i 0, i 1, eq_ix2 i⟩
  have e := Host.reduce_andi_all _ _ hr hu ix0 h (ix2 p q)
  have e' : Ideal.cmp .olt (max (a (ix2 p q)) (-(a (ix2 p q)))) (Ideal.ofBits .f32 0x7F800000#32) = 1#1 := e
  exact real_of_abs_lt (a (ix2 p q)) e'

/-- The precondition gives three real matrices whose lifts are the inputs. -/
theorem reals_of_pre (a0 : FVec Ideal Cert.Pre_finite_inputs.S4096x8192 .f32) (a1 : FVec Ideal Cert.Pre_finite_inputs.S4096x128 .f32) (a2 : FVec Ideal Cert.Pre_finite_inputs.S8192x128 .f32)
    (h : Cert.Pre_finite_inputs.fn (F := Ideal) a0 a1 a2 = fun _ => 1#1) :
    ∃ (g : Fin 4096 → Fin 8192 → ℝ) (x : Fin 4096 → Fin 128 → ℝ) (y : Fin 8192 → Fin 128 → ℝ), a0 = lift2 g ∧ a1 = lift2 x ∧ a2 = lift2 y := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨_, _, _, lift_of_all _ _ _ a0 h0', lift_of_all _ _ _ a1 h1, lift_of_all _ _ _ a2 h2⟩

end Cert.Finite

end
-- ==== Proof.lean ====
/-
  The certificate: a weighted-graph smoothness loss computed tile by tile on the matrix unit equals its plain jnp
  reference, over the extended reals, on finite inputs.

  With g the 4096 x 8192 weights, x the 4096 x 128 row features and y the 8192 x 128 column features, both programs
  compute

      ( sum_i rowdeg_i |x_i|^2  +  sum_j coldeg_j |y_j|^2  -  2 sum_{i,d} x_{id} (g y)_{id} ) / (4096 * 8192).

  The reference does so with whole-array sums and one product g y.  The kernel first appends to y the column of its
  squared row lengths, a column of ones and zero padding; then, for each of 16 tiles of 256 rows, ONE product of the tile
  of g with that augmented matrix yields the tile of g y (columns 0..127), the sums sum_j g_rj |y_j|^2 (column 128) and
  the row degrees (column 129), from which the tile's contribution is formed and added to a running sum kept in a scratch
  word, reset at the start of each half of the grid and written out, replicated over an 8 x 128 block, at its end; the
  host then sums the two blocks, divides by 8 * 128 to undo the replication, and by 4096 * 8192.

  Why the two agree: every input is finite (the precondition), so every quantity is a real number and the operations are
  the real ones (a change of float format is the identity at the ideal instance).  Over the reals, the sum over the tiles
  and the rows of a tile is the sum over all rows; sum_i sum_j g_ij |y_j|^2 = sum_j coldeg_j |y_j|^2 by exchanging the two
  sums; the ones column gives sum_j g_ij * 1 = rowdeg_i; and 1024 copies of a number, summed and divided by 1024, give it
  back.  Finiteness is needed: these laws fail at infinities.

  The frames (each program runs to its end, faults nowhere, and leaves its arguments as it found them): for the two kernel
  programs by a symbolic run of the body in each of the three kinds of grid point and the launch theorem for a kernel that
  carries a scratch word between points; for the reference by its run as a sequence of host operations.  The idealization
  rewrote nothing, so there is nothing to preserve.
-/
import proofs.«104621_j30631706755178_2_alg».proof.Defs
import proofs.«104621_j30631706755178_2_alg».proof.Proof.Gen.Kernel
import proofs.«104621_j30631706755178_2_alg».proof.Proof.Gen.KernelIdeal
import proofs.«104621_j30631706755178_2_alg».proof.Proof.Gen.ReferenceIdeal
import proofs.«104621_j30631706755178_2_alg».proof.Proof.Gen.Pre_finite_inputs
import proofs.«104621_j30631706755178_2_alg».proof.Proof.KFrame
import proofs.«104621_j30631706755178_2_alg».proof.Proof.KernelRun
import proofs.«104621_j30631706755178_2_alg».proof.Proof.RefValue
import proofs.«104621_j30631706755178_2_alg».proof.Proof.Finite

noncomputable section

namespace Cert.Proof

open Idealize.ShloMosaic Idealize.SL.Sem Cert.Spec

/-- The kernel as printed runs and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both idealized programs end with the loss of the three real matrices the inputs are. -/
theorem algebraic : Cert.algebraic_KernelIdeal_ReferenceIdeal := by
  intro m ρ m' ρ' hpre hagree
  choose g x y hg hx hy using fun c => Cert.Finite.reals_of_pre _ _ _ (hpre c)
  refine ⟨fun c => fun _ => ((loss (g c) (x c) (y c) : ℝ) : EReal), Cert.KernelIdeal.Val.run_value m ρ g x y hg hx hy, ?_⟩
  refine (θ_run Cert.ReferenceIdeal.defs _ _).mono (fun _ h c => ⟨(h c).1.trans ?_, (h c).2⟩)
    (Cert.ReferenceIdeal.Value.run (F := Ideal) m' ρ')
  show _ = fun _ => ((loss (g c) (x c) (y c) : ℝ) : EReal)
  rw [Cert.ReferenceIdeal.Read.val_main_v16_eq, (hagree c).1, (hagree c).2.1, (hagree c).2.2, hg c, hx c, hy c,
    Cert.RefBridge.ref_value]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
